-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S5000x64 : Shape := ⟨2, ![5000, 64]⟩
abbrev S800000 : Shape := ⟨1, ![800000]⟩
abbrev S5000 : Shape := ⟨1, ![5000]⟩
abbrev S10000 : Shape := ⟨1, ![10000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S5000x64 : S_.BroadcastsInDim S5000x64 (![] : Fin 0 → Fin S5000x64.rank)
  reducesTo_S5000x64_S_d0_1 : S5000x64.ReducesTo [0, 1] S_

variable [Facts]

def fn_part1 {F : FTy → Type} [FloatOps F] (main_v13 : IVec S_ 1) (main_v16 : IVec S5000x64 1) : IVec S_ 1 :=
  let main_c_5 : IVec S_ 1 := constantI S_ 1 1#1
  let main_v17 : IVec S_ 1 := (fun x v => Host.reduce IntOp.andi x v reducesTo_S5000x64_S_d0_1 h_S_) main_v16 main_c_5
  let main_v18 : IVec S_ 1 := andi main_v13 main_v17
  main_v18

def fn {F : FTy → Type} [FloatOps F] (main_arg0 : FVec F S50000x128 .f32) (main_arg1 : FVec F S128x64 .f32) (main_arg2 : FVec F S64 .f32) (main_arg3 : FVec F S5000x64 .f32) (main_arg4 : IVec S800000 32) (main_arg5 : IVec S800000 32) (main_arg6 : IVec S5000 32) (main_arg7 : IVec S10000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S5000x64 .f32 := Host.absf main_arg3
  let main_cst_4 : FVec F S_ .f32 := constant S_ .f32 0x7F800000#32
  let main_v15 : FVec F S5000x64 .f32 := broadcastInDim S5000x64 ![] bcast_S_S5000x64 main_cst_4
  let main_v16 : IVec S5000x64 1 := cmpf .olt main_v14 main_v15
  fn_part1 (F := F) main_v13 main_v16
-- ==== Kernel.lean ====
abbrev S50000x128 : Shape := ⟨2, ![50000, 128]⟩
abbrev S128x64 : Shape := ⟨2, ![128, 64]⟩
abbrev S64 : Shape := ⟨1, ![64]⟩
abbrev S5000x64 : Shape := ⟨2, ![5000, 64]⟩
abbrev S800000 : Shape := ⟨1, ![800000]⟩
abbrev S5000 : Shape := ⟨1, ![5000]⟩
abbrev S10000 : Shape := ⟨1, ![10000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S800000x64 : Shape := ⟨2, ![800000, 64]⟩
abbrev S1x64 : Shape := ⟨2, ![1, 64]⟩
abbrev S55000 : Shape := ⟨1, ![55000]⟩
abbrev S55000x1 : Shape := ⟨2, ![55000, 1]⟩
abbrev S55000x64 : Shape := ⟨2, ![55000, 64]⟩
abbrev S10000x1 : Shape := ⟨2, ![10000, 1]⟩
abbrev S10000x64 : Shape := ⟨2, ![10000, 64]⟩

abbrev nBuf : Space → Nat
  | .hbm => 149
  | .vmem => 14
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S5000x64, .f32⟩
  | 4 => ⟨S800000, .i32⟩
  | 5 => ⟨S800000, .i32⟩
  | 6 => ⟨S5000, .i32⟩
  | 7 => ⟨S10000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000, .f32⟩
  | 18 => ⟨S50000x1, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000, .f32⟩
  | 41 => ⟨S50000x1, .f32⟩
  | 42 => ⟨S1x64, .f32⟩
  | 43 => ⟨S50000x64, .f32⟩
  | 44 => ⟨S_, .i1⟩
  | 45 => ⟨S55000, .i1⟩
  | 46 => ⟨S_, .i32⟩
  | 47 => ⟨S5000, .i32⟩
  | 48 => ⟨S5000, .i1⟩
  | 49 => ⟨S_, .i32⟩
  | 50 => ⟨S5000, .i32⟩
  | 51 => ⟨S5000, .i32⟩
  | 52 => ⟨S5000, .i32⟩
  | 53 => ⟨S5000x1, .i32⟩
  | 54 => ⟨S_, .i1⟩
  | 55 => ⟨S5000, .i1⟩
  | 56 => ⟨S55000, .i1⟩
  | 57 => ⟨S55000, .i32⟩
  | 58 => ⟨S_, .i32⟩
  | 59 => ⟨S_, .i32⟩
  | 60 => ⟨S55000, .i32⟩
  | 61 => ⟨S_, .i32⟩
  | 62 => ⟨S50000, .i32⟩
  | 63 => ⟨S_, .i32⟩
  | 64 => ⟨S_, .i32⟩
  | 65 => ⟨S55000, .i32⟩
  | 66 => ⟨S55000, .i32⟩
  | 67 => ⟨S_, .i32⟩
  | 68 => ⟨S55000, .i32⟩
  | 69 => ⟨S55000, .i1⟩
  | 70 => ⟨S_, .i32⟩
  | 71 => ⟨S55000, .i32⟩
  | 72 => ⟨S55000, .i32⟩
  | 73 => ⟨S55000, .i32⟩
  | 74 => ⟨S55000x1, .i32⟩
  | 75 => ⟨S_, .i32⟩
  | 76 => ⟨S55000, .i32⟩
  | 77 => ⟨S50000, .i32⟩
  | 78 => ⟨S_, .i32⟩
  | 79 => ⟨S_, .i32⟩
  | 80 => ⟨S50000, .i32⟩
  | 81 => ⟨S_, .i32⟩
  | 82 => ⟨S50000, .i32⟩
  | 83 => ⟨S50000, .i32⟩
  | 84 => ⟨S50000, .i32⟩
  | 85 => ⟨S_, .i32⟩
  | 86 => ⟨S50000, .i32⟩
  | 87 => ⟨S50000, .i1⟩
  | 88 => ⟨S50000, .i32⟩
  | 89 => ⟨S50000, .i32⟩
  | 90 => ⟨S_, .i32⟩
  | 91 => ⟨S50000, .i32⟩
  | 92 => ⟨S50000, .i1⟩
  | 93 => ⟨S50000, .i1⟩
  | 94 => ⟨S_, .i32⟩
  | 95 => ⟨S50000, .i32⟩
  | 96 => ⟨S50000, .i32⟩
  | 97 => ⟨S50000, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S50000, .i32⟩
  | 105 => ⟨S50000, .i32⟩
  | 106 => ⟨S_, .i32⟩
  | 107 => ⟨S50000, .i32⟩
  | 108 => ⟨S50000, .i1⟩
  | 109 => ⟨S_, .i32⟩
  | 110 => ⟨S50000, .i32⟩
  | 111 => ⟨S50000, .i1⟩
  | 112 => ⟨S_, .i32⟩
  | 113 => ⟨S_, .i1⟩
  | 114 => ⟨S50000, .i1⟩
  | 115 => ⟨S50000, .i1⟩
  | 116 => ⟨S50000, .i1⟩
  | 117 => ⟨S50000, .i32⟩
  | 118 => ⟨S50000, .i32⟩
  | 119 => ⟨S50000, .i32⟩
  | 120 => ⟨S_, .f32⟩
  | 121 => ⟨S55000x64, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S50000x128, .f32⟩

abbrev hbmTy0_1 (i : Nat) : BufTy := match i % 128 with
  | 0 => ⟨S50000, .i32⟩
  | 1 => ⟨S50000x1, .i32⟩
  | 2 => ⟨S55000x64, .f32⟩
  | 3 => ⟨S_, .i32⟩
  | 4 => ⟨S5000, .i32⟩
  | 5 => ⟨S5000, .i1⟩
  | 6 => ⟨S_, .i32⟩
  | 7 => ⟨S5000, .i32⟩
  | 8 => ⟨S5000, .i32⟩
  | 9 => ⟨S5000, .i32⟩
  | 10 => ⟨S5000x1, .i32⟩
  | 11 => ⟨S55000x64, .f32⟩
  | 12 => ⟨S_, .i32⟩
  | 13 => ⟨S10000, .i32⟩
  | 14 => ⟨S10000, .i1⟩
  | 15 => ⟨S_, .i32⟩
  | 16 => ⟨S10000, .i32⟩
  | 17 => ⟨S10000, .i32⟩
  | 18 => ⟨S10000, .i32⟩
  | 19 => ⟨S10000x1, .i32⟩
  | 20 => ⟨S10000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_call0_v0 : Ref sig .tc := ⟨.hbm, 57, rfl⟩
abbrev main_call0_call0_c : Ref sig .tc := ⟨.hbm, 58, rfl⟩
abbrev main_call0_call0_v0 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_c_11 : Ref sig .tc := ⟨.hbm, 63, rfl⟩
abbrev main_call1_v0 : Ref sig .tc := ⟨.hbm, 64, rfl⟩
abbrev main_call1_v1 : Ref sig .tc := ⟨.hbm, 65, rfl⟩
abbrev main_v39 : Ref sig .tc := ⟨.hbm, 66, rfl⟩
abbrev main_c_12 : Ref sig .tc := ⟨.hbm, 67, rfl⟩
abbrev main_v40 : Ref sig .tc := ⟨.hbm, 68, rfl⟩
abbrev main_v41 : Ref sig .tc := ⟨.hbm, 69, rfl⟩
abbrev main_c_13 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_14 : Ref sig .tc := ⟨.hbm, 75, rfl⟩
abbrev main_v46 : Ref sig .tc := ⟨.hbm, 76, rfl⟩
abbrev main_v47 : Ref sig .tc := ⟨.hbm, 77, rfl⟩
abbrev main_call2_call0_c : Ref sig .tc := ⟨.hbm, 78, rfl⟩
abbrev main_call2_call0_v0 : Ref sig .tc := ⟨.hbm, 79, rfl⟩
abbrev main_v48 : Ref sig .tc := ⟨.hbm, 80, rfl⟩
abbrev main_c_15 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_c : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_c_0 : Ref sig .tc := ⟨.hbm, 94, rfl⟩
abbrev main_call3_v11 : Ref sig .tc := ⟨.hbm, 95, rfl⟩
abbrev main_call3_v12 : Ref sig .tc := ⟨.hbm, 96, rfl⟩
abbrev main_v49 : Ref sig .tc := ⟨.hbm, 97, rfl⟩
abbrev main_c_16 : Ref sig .tc := ⟨.hbm, 98, rfl⟩
abbrev main_call4_v0 : Ref sig .tc := ⟨.hbm, 99, rfl⟩
abbrev main_call4_c : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_c_1 : Ref sig .tc := ⟨.hbm, 106, rfl⟩
abbrev main_call4_v5 : Ref sig .tc := ⟨.hbm, 107, rfl⟩
abbrev main_call4_v6 : Ref sig .tc := ⟨.hbm, 108, rfl⟩
abbrev main_call4_c_2 : Ref sig .tc := ⟨.hbm, 109, rfl⟩
abbrev main_call4_v7 : Ref sig .tc := ⟨.hbm, 110, rfl⟩
abbrev main_call4_v8 : Ref sig .tc := ⟨.hbm, 111, rfl⟩
abbrev main_call4_c_3 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_v50 : Ref sig .tc := ⟨.hbm, 119, rfl⟩
abbrev main_cst_17 : Ref sig .tc := ⟨.hbm, 120, rfl⟩
abbrev main_v51 : Ref sig .tc := ⟨.hbm, 121, rfl⟩
abbrev main_c_18 : Ref sig .tc := ⟨.hbm, 122, rfl⟩
abbrev main_v52 : Ref sig .tc := ⟨.hbm, 123, rfl⟩
abbrev main_v53 : Ref sig .tc := ⟨.hbm, 124, rfl⟩
abbrev main_c_19 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_c_20 : Ref sig .tc := ⟨.hbm, 131, rfl⟩
abbrev main_v59 : Ref sig .tc := ⟨.hbm, 132, rfl⟩
abbrev main_v60 : Ref sig .tc := ⟨.hbm, 133, rfl⟩
abbrev main_c_21 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_c_22 : Ref sig .tc := ⟨.hbm, 140, rfl⟩
abbrev main_v66 : Ref sig .tc := ⟨.hbm, 141, rfl⟩
abbrev main_v67 : Ref sig .tc := ⟨.hbm, 142, rfl⟩
abbrev main_c_23 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  bcast_S_S55000 : S_.BroadcastsInDim S55000 (![] : Fin 0 → Fin S55000.rank)
  bcast_S_S5000 : S_.BroadcastsInDim S5000 (![] : Fin 0 → Fin S5000.rank)
  bcast_S5000_S5000x1_0 : S5000.BroadcastsInDim S5000x1 (![0] : Fin 1 → Fin S5000x1.rank)
  natLt_1_32 : 1 < 32
  bcast_S_S_ : S_.BroadcastsInDim S_ (![] : Fin 0 → Fin S_.rank)
  reduceWindows_S55000_S55000_w55000s1p54999_0 : S55000.ReduceWindows (![55000] : Fin 1 → Nat) ![1] ![54999] ![0] S55000
  h_S_ : 0 < S_.numel
  bcast_S55000_S55000x1_0 : S55000.BroadcastsInDim S55000x1 (![0] : Fin 1 → Fin S55000x1.rank)
  reduceWindows_S50000_S50000_w50000s1p49999_0 : S50000.ReduceWindows (![50000] : Fin 1 → Nat) ![1] ![49999] ![0] S50000
  bcast_S_S55000x64 : S_.BroadcastsInDim S55000x64 (![] : Fin 0 → Fin S55000x64.rank)
  bcast_S50000_S50000x1_0 : S50000.BroadcastsInDim S50000x1 (![0] : Fin 1 → Fin S50000x1.rank)
  bcast_S_S10000 : S_.BroadcastsInDim S10000 (![] : Fin 0 → Fin S10000.rank)
  bcast_S10000_S10000x1_0 : S10000.BroadcastsInDim S10000x1 (![0] : Fin 1 → Fin S10000x1.rank)
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S55000_S5000x1_S5000_n_0_0_1_wf : ScatterDims.WF S55000 S5000x1 S5000 [] [0] [0] 1
  scatter_S50000_S55000x1_S55000_n_0_0_1_wf : ScatterDims.WF S50000 S55000x1 S55000 [] [0] [0] 1
  scatter_S55000x64_S50000x1_S50000x64_1_0_0_1_wf : ScatterDims.WF S55000x64 S50000x1 S50000x64 [1] [0] [0] 1
  scatter_S55000x64_S5000x1_S5000x64_1_0_0_1_wf : ScatterDims.WF S55000x64 S5000x1 S5000x64 [1] [0] [0] 1
  gather_S55000x64_S10000x1_S10000x64_1_0_n_n_0_1_164_wf : GatherDims.WF S55000x64 S10000x1 S10000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S55000_S5000x1_S5000_n_0_0_1 : ScatterDims S55000 S5000x1 S5000 where
  updateWindowDims := []
  insertedWindowDims := [0]
  scatterDimsToOperandDims := [0]
  indexVectorDim := 1
  wf := scatter_S55000_S5000x1_S5000_n_0_0_1_wf
def scatter_S50000_S55000x1_S55000_n_0_0_1 : ScatterDims S50000 S55000x1 S55000 where
  updateWindowDims := []
  insertedWindowDims := [0]
  scatterDimsToOperandDims := [0]
  indexVectorDim := 1
  wf := scatter_S50000_S55000x1_S55000_n_0_0_1_wf
def scatter_S55000x64_S50000x1_S50000x64_1_0_0_1 : ScatterDims S55000x64 S50000x1 S50000x64 where
  updateWindowDims := [1]
  insertedWindowDims := [0]
  scatterDimsToOperandDims := [0]
  indexVectorDim := 1
  wf := scatter_S55000x64_S50000x1_S50000x64_1_0_0_1_wf
def scatter_S55000x64_S5000x1_S5000x64_1_0_0_1 : ScatterDims S55000x64 S5000x1 S5000x64 where
  updateWindowDims := [1]
  insertedWindowDims := [0]
  scatterDimsToOperandDims := [0]
  indexVectorDim := 1
  wf := scatter_S55000x64_S5000x1_S5000x64_1_0_0_1_wf
def gather_S55000x64_S10000x1_S10000x64_1_0_n_n_0_1_164 : GatherDims S55000x64 S10000x1 S10000x64 where
  offsetDims := [1]
  collapsedSliceDims := [0]
  operandBatchingDims := []
  startIndicesBatchingDims := []
  startIndexMap := [0]
  indexVectorDim := 1
  sliceSizes := ![1, 64]
  wf := gather_S55000x64_S10000x1_S10000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S5000x64 : Shape := ⟨2, ![5000, 64]⟩
abbrev S800000 : Shape := ⟨1, ![800000]⟩
abbrev S5000 : Shape := ⟨1, ![5000]⟩
abbrev S10000 : Shape := ⟨1, ![10000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S55000 : Shape := ⟨1, ![55000]⟩
abbrev S5000x1 : Shape := ⟨2, ![5000, 1]⟩
abbrev S55000x1 : Shape := ⟨2, ![55000, 1]⟩
abbrev S55000x64 : Shape := ⟨2, ![55000, 64]⟩
abbrev S10000x1 : Shape := ⟨2, ![10000, 1]⟩
abbrev S10000x64 : Shape := ⟨2, ![10000, 64]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S5000x64, .f32⟩
  | 4 => ⟨S800000, .i32⟩
  | 5 => ⟨S800000, .i32⟩
  | 6 => ⟨S5000, .i32⟩
  | 7 => ⟨S10000, .i32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S_, .i1⟩
  | 50 => ⟨S55000, .i1⟩
  | 51 => ⟨S_, .i32⟩
  | 52 => ⟨S5000, .i32⟩
  | 53 => ⟨S5000, .i1⟩
  | 54 => ⟨S_, .i32⟩
  | 55 => ⟨S5000, .i32⟩
  | 56 => ⟨S5000, .i32⟩
  | 57 => ⟨S5000, .i32⟩
  | 58 => ⟨S5000x1, .i32⟩
  | 59 => ⟨S_, .i1⟩
  | 60 => ⟨S5000, .i1⟩
  | 61 => ⟨S55000, .i1⟩
  | 62 => ⟨S55000, .i32⟩
  | 63 => ⟨S_, .i32⟩
  | 64 => ⟨S_, .i32⟩
  | 65 => ⟨S55000, .i32⟩
  | 66 => ⟨S_, .i32⟩
  | 67 => ⟨S50000, .i32⟩
  | 68 => ⟨S_, .i32⟩
  | 69 => ⟨S_, .i32⟩
  | 70 => ⟨S55000, .i32⟩
  | 71 => ⟨S55000, .i32⟩
  | 72 => ⟨S_, .i32⟩
  | 73 => ⟨S55000, .i32⟩
  | 74 => ⟨S55000, .i1⟩
  | 75 => ⟨S_, .i32⟩
  | 76 => ⟨S55000, .i32⟩
  | 77 => ⟨S55000, .i32⟩
  | 78 => ⟨S55000, .i32⟩
  | 79 => ⟨S55000x1, .i32⟩
  | 80 => ⟨S_, .i32⟩
  | 81 => ⟨S55000, .i32⟩
  | 82 => ⟨S50000, .i32⟩
  | 83 => ⟨S_, .i32⟩
  | 84 => ⟨S_, .i32⟩
  | 85 => ⟨S50000, .i32⟩
  | 86 => ⟨S_, .i32⟩
  | 87 => ⟨S50000, .i32⟩
  | 88 => ⟨S50000, .i32⟩
  | 89 => ⟨S50000, .i32⟩
  | 90 => ⟨S_, .i32⟩
  | 91 => ⟨S50000, .i32⟩
  | 92 => ⟨S50000, .i1⟩
  | 93 => ⟨S50000, .i32⟩
  | 94 => ⟨S50000, .i32⟩
  | 95 => ⟨S_, .i32⟩
  | 96 => ⟨S50000, .i32⟩
  | 97 => ⟨S50000, .i1⟩
  | 98 => ⟨S50000, .i1⟩
  | 99 => ⟨S_, .i32⟩
  | 100 => ⟨S50000, .i32⟩
  | 101 => ⟨S50000, .i32⟩
  | 102 => ⟨S50000, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S50000, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i1⟩
  | 117 => ⟨S_, .i32⟩
  | 118 => ⟨S_, .i1⟩
  | 119 => ⟨S50000, .i1⟩
  | 120 => ⟨S50000, .i1⟩
  | 121 => ⟨S50000, .i1⟩
  | 122 => ⟨S50000, .i32⟩
  | 123 => ⟨S50000, .i32⟩
  | 124 => ⟨S50000, .i32⟩
  | 125 => ⟨S_, .f32⟩
  | 126 => ⟨S55000x64, .f32⟩
  | 127 => ⟨S_, .i32⟩
  | _ => ⟨S50000x128, .f32⟩

abbrev hbmTy0_1 (i : Nat) : BufTy := match i % 128 with
  | 0 => ⟨S50000, .i32⟩
  | 1 => ⟨S50000, .i1⟩
  | 2 => ⟨S_, .i32⟩
  | 3 => ⟨S50000, .i32⟩
  | 4 => ⟨S50000, .i32⟩
  | 5 => ⟨S50000, .i32⟩
  | 6 => ⟨S50000x1, .i32⟩
  | 7 => ⟨S55000x64, .f32⟩
  | 8 => ⟨S_, .i32⟩
  | 9 => ⟨S5000, .i32⟩
  | 10 => ⟨S5000, .i1⟩
  | 11 => ⟨S_, .i32⟩
  | 12 => ⟨S5000, .i32⟩
  | 13 => ⟨S5000, .i32⟩
  | 14 => ⟨S5000, .i32⟩
  | 15 => ⟨S5000x1, .i32⟩
  | 16 => ⟨S55000x64, .f32⟩
  | 17 => ⟨S_, .i32⟩
  | 18 => ⟨S10000, .i32⟩
  | 19 => ⟨S10000, .i1⟩
  | 20 => ⟨S_, .i32⟩
  | 21 => ⟨S10000, .i32⟩
  | 22 => ⟨S10000, .i32⟩
  | 23 => ⟨S10000, .i32⟩
  | 24 => ⟨S10000x1, .i32⟩
  | 25 => ⟨S10000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_call0_c : Ref sig .tc := ⟨.hbm, 63, rfl⟩
abbrev main_call0_call0_v0 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_c_11 : Ref sig .tc := ⟨.hbm, 68, rfl⟩
abbrev main_call1_v0 : Ref sig .tc := ⟨.hbm, 69, rfl⟩
abbrev main_call1_v1 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_c_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_14 : Ref sig .tc := ⟨.hbm, 80, rfl⟩
abbrev main_v51 : Ref sig .tc := ⟨.hbm, 81, rfl⟩
abbrev main_v52 : Ref sig .tc := ⟨.hbm, 82, rfl⟩
abbrev main_call2_call0_c : Ref sig .tc := ⟨.hbm, 83, rfl⟩
abbrev main_call2_call0_v0 : Ref sig .tc := ⟨.hbm, 84, rfl⟩
abbrev main_v53 : Ref sig .tc := ⟨.hbm, 85, rfl⟩
abbrev main_c_15 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_c : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_c_0 : Ref sig .tc := ⟨.hbm, 99, rfl⟩
abbrev main_call3_v11 : Ref sig .tc := ⟨.hbm, 100, rfl⟩
abbrev main_call3_v12 : Ref sig .tc := ⟨.hbm, 101, rfl⟩
abbrev main_v54 : Ref sig .tc := ⟨.hbm, 102, rfl⟩
abbrev main_c_16 : Ref sig .tc := ⟨.hbm, 103, rfl⟩
abbrev main_call4_v0 : Ref sig .tc := ⟨.hbm, 104, rfl⟩
abbrev main_call4_c : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_c_1 : Ref sig .tc := ⟨.hbm, 111, rfl⟩
abbrev main_call4_v5 : Ref sig .tc := ⟨.hbm, 112, rfl⟩
abbrev main_call4_v6 : Ref sig .tc := ⟨.hbm, 113, rfl⟩
abbrev main_call4_c_2 : Ref sig .tc := ⟨.hbm, 114, rfl⟩
abbrev main_call4_v7 : Ref sig .tc := ⟨.hbm, 115, rfl⟩
abbrev main_call4_v8 : Ref sig .tc := ⟨.hbm, 116, rfl⟩
abbrev main_call4_c_3 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_v55 : Ref sig .tc := ⟨.hbm, 124, rfl⟩
abbrev main_cst_17 : Ref sig .tc := ⟨.hbm, 125, rfl⟩
abbrev main_v56 : Ref sig .tc := ⟨.hbm, 126, rfl⟩
abbrev main_c_18 : Ref sig .tc := ⟨.hbm, 127, rfl⟩
abbrev main_v57 : Ref sig .tc := ⟨.hbm, 128, rfl⟩
abbrev main_v58 : Ref sig .tc := ⟨.hbm, 129, rfl⟩
abbrev main_c_19 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_c_20 : Ref sig .tc := ⟨.hbm, 136, rfl⟩
abbrev main_v64 : Ref sig .tc := ⟨.hbm, 137, rfl⟩
abbrev main_v65 : Ref sig .tc := ⟨.hbm, 138, rfl⟩
abbrev main_c_21 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_c_22 : Ref sig .tc := ⟨.hbm, 145, rfl⟩
abbrev main_v71 : Ref sig .tc := ⟨.hbm, 146, rfl⟩
abbrev main_v72 : Ref sig .tc := ⟨.hbm, 147, rfl⟩
abbrev main_c_23 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S55000 : S_.BroadcastsInDim S55000 (![] : Fin 0 → Fin S55000.rank)
  bcast_S_S5000 : S_.BroadcastsInDim S5000 (![] : Fin 0 → Fin S5000.rank)
  bcast_S5000_S5000x1_0 : S5000.BroadcastsInDim S5000x1 (![0] : Fin 1 → Fin S5000x1.rank)
  natLt_1_32 : 1 < 32
  bcast_S_S_ : S_.BroadcastsInDim S_ (![] : Fin 0 → Fin S_.rank)
  reduceWindows_S55000_S55000_w55000s1p54999_0 : S55000.ReduceWindows (![55000] : Fin 1 → Nat) ![1] ![54999] ![0] S55000
  h_S_ : 0 < S_.numel
  bcast_S55000_S55000x1_0 : S55000.BroadcastsInDim S55000x1 (![0] : Fin 1 → Fin S55000x1.rank)
  reduceWindows_S50000_S50000_w50000s1p49999_0 : S50000.ReduceWindows (![50000] : Fin 1 → Nat) ![1] ![49999] ![0] S50000
  bcast_S_S55000x64 : S_.BroadcastsInDim S55000x64 (![] : Fin 0 → Fin S55000x64.rank)
  bcast_S_S10000 : S_.BroadcastsInDim S10000 (![] : Fin 0 → Fin S10000.rank)
  bcast_S10000_S10000x1_0 : S10000.BroadcastsInDim S10000x1 (![0] : Fin 1 → Fin S10000x1.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S55000_S5000x1_S5000_n_0_0_1_wf : ScatterDims.WF S55000 S5000x1 S5000 [] [0] [0] 1
  scatter_S50000_S55000x1_S55000_n_0_0_1_wf : ScatterDims.WF S50000 S55000x1 S55000 [] [0] [0] 1
  scatter_S55000x64_S50000x1_S50000x64_1_0_0_1_wf : ScatterDims.WF S55000x64 S50000x1 S50000x64 [1] [0] [0] 1
  scatter_S55000x64_S5000x1_S5000x64_1_0_0_1_wf : ScatterDims.WF S55000x64 S5000x1 S5000x64 [1] [0] [0] 1
  gather_S55000x64_S10000x1_S10000x64_1_0_n_n_0_1_164_wf : GatherDims.WF S55000x64 S10000x1 S10000x64 [1] [0] [] [0] [] 1 ![1, 64]

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S55000_S5000x1_S5000_n_0_0_1 : ScatterDims S55000 S5000x1 S5000 where
  updateWindowDims := []
  insertedWindowDims := [0]
  scatterDimsToOperandDims := [0]
  indexVectorDim := 1
  wf := scatter_S55000_S5000x1_S5000_n_0_0_1_wf
def scatter_S50000_S55000x1_S55000_n_0_0_1 : ScatterDims S50000 S55000x1 S55000 where
  updateWindowDims := []
  insertedWindowDims := [0]
  scatterDimsToOperandDims := [0]
  indexVectorDim := 1
  wf := scatter_S50000_S55000x1_S55000_n_0_0_1_wf
def scatter_S55000x64_S50000x1_S50000x64_1_0_0_1 : ScatterDims S55000x64 S50000x1 S50000x64 where
  updateWindowDims := [1]
  insertedWindowDims := [0]
  scatterDimsToOperandDims := [0]
  indexVectorDim := 1
  wf := scatter_S55000x64_S50000x1_S50000x64_1_0_0_1_wf
def scatter_S55000x64_S5000x1_S5000x64_1_0_0_1 : ScatterDims S55000x64 S5000x1 S5000x64 where
  updateWindowDims := [1]
  insertedWindowDims := [0]
  scatterDimsToOperandDims := [0]
  indexVectorDim := 1
  wf := scatter_S55000x64_S5000x1_S5000x64_1_0_0_1_wf
def gather_S55000x64_S10000x1_S10000x64_1_0_n_n_0_1_164 : GatherDims S55000x64 S10000x1 S10000x64 where
  offsetDims := [1]
  collapsedSliceDims := [0]
  operandBatchingDims := []
  startIndicesBatchingDims := []
  startIndexMap := [0]
  indexVectorDim := 1
  sliceSizes := ![1, 64]
  wf := gather_S55000x64_S10000x1_S10000x64_1_0_n_n_0_1_164_wf

class Facts : Prop extends Facts₀ where

variable [Facts]
-- ==== Proof.Place.lean ====
/-
  Putting the computed rows and the reused rows into one table, and reading cached rows back: the part of the
  computation that only moves rows.

  A table of 55000 rows receives 5000 given rows at given row numbers (the reused rows) and the 50000 computed rows at
  the remaining row numbers, in order. The remaining row numbers are found with integers only: a mask that is true
  except at the reused row numbers; the running count of the mask; each row number's count clipped at zero and used as
  a slot, every slot counting the row numbers that fall in it; the running count of the slots; a floor division by one
  and a remainder by 55000, both spelt out with their sign corrections. The computed rows are scattered to those row
  numbers, the reused rows over them, and 10000 rows of the result are gathered at given row numbers. A negative row
  number counts from the end of the axis it indexes.

  Each stage below is one function of what it reads, written with the operations the programs use, so that both
  programs' lines of operations can be read as the same functions of the same arguments.
-/
import proofs.«175310_j38543036514863_1_alg».proof.Proof.Gen.KernelIdeal

noncomputable section

namespace Cert.KernelIdeal.Place

open Cert.KernelIdeal Cert.KernelIdeal.Gen Idealize.ShloMosaic

variable {F : FTy → Type} [FloatOps F]

/-- The reused row numbers as a column, a negative one counted from the end of the 55000 rows. -/
def reuseCol (ri : (⟨S5000, .i32⟩ : BufTy).Contents (Elt F)) : (⟨S5000x1, .i32⟩ : BufTy).Contents (Elt F) :=
  broadcastInDim S5000x1 ![0] bcast_S5000_S5000x1_0
    (select (cmpi .slt ri (broadcastInDim S5000 ![] bcast_S_S5000 (constantI S_ 32 0#32)))
      (addi ri (broadcastInDim S5000 ![] bcast_S_S5000 (constantI S_ 32 55000#32))) ri)

/-- True at every row number except the reused ones. -/
def keepMask (ri : (⟨S5000, .i32⟩ : BufTy).Contents (Elt F)) : (⟨S55000, .i1⟩ : BufTy).Contents (Elt F) :=
  Host.scatter scatter_S55000_S5000x1_S5000_n_0_0_1 (fun _ b => b)
    (broadcastInDim S55000 ![] bcast_S_S55000 (constantI S_ 1 1#1)) (reuseCol ri)
    (broadcastInDim S5000 ![] bcast_S_S5000 (constantI S_ 1 0#1))

/-- The running count of kept row numbers. -/
def keptCount (ri : (⟨S5000, .i32⟩ : BufTy).Contents (Elt F)) : (⟨S55000, .i32⟩ : BufTy).Contents (Elt F) :=
  Host.reduceWindow IntOp.addi ![55000] ![1] ![54999] ![0] (extui 32 (keepMask ri) natLt_1_32)
    (broadcastInDim S_ ![] bcast_S_S_ (constantI S_ 32 0#32)) reduceWindows_S55000_S55000_w55000s1p54999_0 h_S_

/-- That count, not below zero. -/
def slotOf (ri : (⟨S5000, .i32⟩ : BufTy).Contents (Elt F)) : (⟨S55000, .i32⟩ : BufTy).Contents (Elt F) :=
  maxsi (broadcastInDim S55000 ![] bcast_S_S55000 (id (constantI S_ 32 0#32))) (keptCount ri)

/-- The slots as a column, a negative one counted from the end of the 50000 slots. -/
def slotCol (ri : (⟨S5000, .i32⟩ : BufTy).Contents (Elt F)) : (⟨S55000x1, .i32⟩ : BufTy).Contents (Elt F) :=
  broadcastInDim S55000x1 ![0] bcast_S55000_S55000x1_0
    (select (cmpi .slt (slotOf ri) (broadcastInDim S55000 ![] bcast_S_S55000 (constantI S_ 32 0#32)))
      (addi (slotOf ri) (broadcastInDim S55000 ![] bcast_S_S55000 (constantI S_ 32 50000#32))) (slotOf ri))

/-- How many row numbers fall in each slot. -/
def slotFill (ri : (⟨S5000, .i32⟩ : BufTy).Contents (Elt F)) : (⟨S50000, .i32⟩ : BufTy).Contents (Elt F) :=
  Host.scatter scatter_S50000_S55000x1_S55000_n_0_0_1 IntOp.addi
    (broadcastInDim S50000 ![] bcast_S_S50000 (constantI S_ 32 0#32)) (slotCol ri)
    (broadcastInDim S55000 ![] bcast_S_S55000 (constantI S_ 32 1#32))

/-- The running count of the slots' fills. -/
def fillCount (ri : (⟨S5000, .i32⟩ : BufTy).Contents (Elt F)) : (⟨S50000, .i32⟩ : BufTy).Contents (Elt F) :=
  Host.reduceWindow IntOp.addi ![50000] ![1] ![49999] ![0] (slotFill ri)
    (broadcastInDim S_ ![] bcast_S_S_ (constantI S_ 32 0#32)) reduceWindows_S50000_S50000_w50000s1p49999_0 h_S_

/-- Floor division by one: the truncating quotient, lowered by one where the signs differ and the remainder is not zero. -/
def floorDivOne (x : (⟨S50000, .i32⟩ : BufTy).Contents (Elt F)) : (⟨S50000, .i32⟩ : BufTy).Contents (Elt F) :=
  select
    (andi
      (cmpi .ne (signi x) (broadcastInDim S50000 ![] bcast_S_S50000 (signi (constantI S_ 32 1#32))))
      (cmpi .ne (Host.remsi x (broadcastInDim S50000 ![] bcast_S_S50000 (constantI S_ 32 1#32)))
        (broadcastInDim S50000 ![] bcast_S_S50000 (constantI S_ 32 0#32))))
    (subi (Host.divsi x (broadcastInDim S50000 ![] bcast_S_S50000 (constantI S_ 32 1#32)))
      (broadcastInDim S50000 ![] bcast_S_S50000 (constantI S_ 32 1#32)))
    (Host.divsi x (broadcastInDim S50000 ![] bcast_S_S50000 (constantI S_ 32 1#32)))

/-- The divisor of the remainder below: 55000, or one if that were zero. -/
def modulus : (⟨S_, .i32⟩ : BufTy).Contents (Elt F) :=
  select (cmpi .eq (id (constantI S_ 32 55000#32)) (constantI S_ 32 0#32)) (constantI S_ 32 1#32) (id (constantI S_ 32 55000#32))

/-- The truncating remainder by the modulus. -/
def truncRem (x : (⟨S50000, .i32⟩ : BufTy).Contents (Elt F)) : (⟨S50000, .i32⟩ : BufTy).Contents (Elt F) :=
  Host.remsi x (broadcastInDim S50000 ![] bcast_S_S50000 (modulus (F := F)))

/-- The remainder with the divisor's sign: the truncating remainder, raised by the modulus where it is not zero and its
    sign differs from the modulus's. -/
def floorRem (x : (⟨S50000, .i32⟩ : BufTy).Contents (Elt F)) : (⟨S50000, .i32⟩ : BufTy).Contents (Elt F) :=
  select
    (andi
      (cmpi .ne (cmpi .slt (truncRem x) (broadcastInDim S50000 ![] bcast_S_S50000 (constantI S_ 32 0#32)))
        (broadcastInDim S50000 ![] bcast_S_S50000 (cmpi .slt (modulus (F := F)) (constantI S_ 32 0#32))))
      (cmpi .ne (truncRem x) (broadcastInDim S50000 ![] bcast_S_S50000 (constantI S_ 32 0#32))))
    (addi (truncRem x) (broadcastInDim S50000 ![] bcast_S_S50000 (modulus (F := F))))
    (truncRem x)

/-- The row numbers the computed rows go to. -/
def keptRows (ri : (⟨S5000, .i32⟩ : BufTy).Contents (Elt F)) : (⟨S50000, .i32⟩ : BufTy).Contents (Elt F) :=
  floorRem (floorDivOne (fillCount ri))

/-- Those row numbers as a column, a negative one counted from the end of the 55000 rows. -/
def keptCol (ri : (⟨S5000, .i32⟩ : BufTy).Contents (Elt F)) : (⟨S50000x1, .i32⟩ : BufTy).Contents (Elt F) :=
  broadcastInDim S50000x1 ![0] bcast_S50000_S50000x1_0
    (select (cmpi .slt (keptRows ri) (broadcastInDim S50000 ![] bcast_S_S50000 (constantI S_ 32 0#32)))
      (addi (keptRows ri) (broadcastInDim S50000 ![] bcast_S_S50000 (constantI S_ 32 55000#32))) (keptRows ri))

/-- THE FULL TABLE: zeros, the computed rows `rows` written at the kept row numbers, then the reused rows `reused`
    written at theirs. -/
def full (rows : (⟨S50000x64, .f32⟩ : BufTy).Contents (Elt F)) (reused : (⟨S5000x64, .f32⟩ : BufTy).Contents (Elt F))
    (ri : (⟨S5000, .i32⟩ : BufTy).Contents (Elt F)) : (⟨S55000x64, .f32⟩ : BufTy).Contents (Elt F) :=
  Host.scatter scatter_S55000x64_S5000x1_S5000x64_1_0_0_1 (fun _ b => b)
    (Host.scatter scatter_S55000x64_S50000x1_S50000x64_1_0_0_1 (fun _ b => b)
      (broadcastInDim S55000x64 ![] bcast_S_S55000x64 (constant S_ .f32 0x00000000#32)) (keptCol ri) rows)
    (reuseCol ri) reused

/-- The cached row numbers as a column, a negative one counted from the end of the 55000 rows. -/
def cacheCol (ci : (⟨S10000, .i32⟩ : BufTy).Contents (Elt F)) : (⟨S10000x1, .i32⟩ : BufTy).Contents (Elt F) :=
  broadcastInDim S10000x1 ![0] bcast_S10000_S10000x1_0
    (select (cmpi .slt ci (broadcastInDim S10000 ![] bcast_S_S10000 (constantI S_ 32 0#32)))
      (addi ci (broadcastInDim S10000 ![] bcast_S_S10000 (constantI S_ 32 55000#32))) ci)

/-- THE CACHED ROWS: the table's rows at the cached row numbers. -/
def cached (table : (⟨S55000x64, .f32⟩ : BufTy).Contents (Elt F)) (ci : (⟨S10000, .i32⟩ : BufTy).Contents (Elt F)) :
    (⟨S10000x64, .f32⟩ : BufTy).Contents (Elt F) :=
  Host.gather gather_S55000x64_S10000x1_S10000x64_1_0_n_n_0_1_164 table (cacheCol ci)

end Cert.KernelIdeal.Place

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.PlaceKernel.lean ====
/-
  The kernel program's row moves, read: after its second kernel launch the program's remaining host operations, from
  any buffer contents, leave the full table and the cached rows at the row-placement functions of the second launch's
  result array, the reused rows and the two lists of row numbers, each read where those operations start.
-/
import proofs.«175310_j38543036514863_1_alg».proof.Proof.Gen.KernelIdeal.Launch
import proofs.«175310_j38543036514863_1_alg».proof.Proof.Place
import proofs.«175310_j38543036514863_1_alg».proof.Proof.LibHostWalk

set_option maxRecDepth 16384

noncomputable section

namespace Cert.KernelIdeal.PlaceRead

open Cert.KernelIdeal Cert.KernelIdeal.Gen
open Idealize.ShloMosaic Idealize.ShloMosaic.TcCoe Idealize.ShloMosaic.StableHlo Cert.HostWalk

variable {F : FTy → Type} [FloatOps F]

/-- The buffer contents after the host operations that follow the second launch, stretch by stretch (a called function's
    operations are a stretch of their own). -/
abbrev afterPlace (V : Valuation τ sig (Elt F)) : Valuation τ sig (Elt F) :=
  after hostOps2_10 (after hostOps2_9 (after hostOps2_8 (after hostOps2_7 (after hostOps2_6 (after hostOps2_5
    (after hostOps2_4 (after hostOps2_3 (after hostOps2_2 (after hostOps2_1 (after hostOps2 V))))))))))

-- the scatters, gathers, running counts and integer divisions are never opened: only which operation feeds which is read
attribute [local irreducible] Host.scatter Host.gather Host.reduceWindow Host.remsi Host.divsi

set_option maxHeartbeats 2000000 in
/-- The full table after the row moves. -/
theorem full_eq (V : Valuation τ sig (Elt F)) :
    afterPlace V (Proc.devRef .tc main_v65)
      = Place.full (F := F) (V (Proc.devRef .tc main_v27)) (V (Proc.devRef .tc main_arg3)) (V (Proc.devRef .tc main_arg6)) := by
  walk_back [afterPlace, hostOps2, hostOps2_1, hostOps2_2, hostOps2_3, hostOps2_4, hostOps2_5, hostOps2_6, hostOps2_7, hostOps2_8, hostOps2_9, hostOps2_10]
  rfl

set_option maxHeartbeats 2000000 in
/-- The cached rows after the row moves: rows of that table. -/
theorem cached_eq (V : Valuation τ sig (Elt F)) :
    afterPlace V (Proc.devRef .tc main_v72)
      = Place.cached (F := F)
          (Place.full (F := F) (V (Proc.devRef .tc main_v27)) (V (Proc.devRef .tc main_arg3)) (V (Proc.devRef .tc main_arg6)))
          (V (Proc.devRef .tc main_arg7)) := by
  walk_back [afterPlace, hostOps2, hostOps2_1, hostOps2_2, hostOps2_3, hostOps2_4, hostOps2_5, hostOps2_6, hostOps2_7, hostOps2_8, hostOps2_9, hostOps2_10]
  rfl

end Cert.KernelIdeal.PlaceRead

end
-- ==== Proof.Stages.lean ====
/-
  The two irregular steps of the layer, each as one function of what it reads, in the operations the programs use.

  `degScale idx` counts, for each of the 50000 nodes, how often it occurs in the list `idx` of 800000 node numbers (a
  scatter-add of ones into zeros), raises the count to at least one and takes the reciprocal square root.
  `aggregate h src dst` gathers the rows of `h` at the node numbers `src` (a negative one counted from the end) and
  adds each gathered row into the row of a zero array that `dst` names. Neither is ever opened: the two programs apply
  them to the same arguments.
-/
import proofs.«175310_j38543036514863_1_alg».proof.Proof.Gen.KernelIdeal

noncomputable section

namespace Cert.KernelIdeal.Stages

open Cert.KernelIdeal Cert.KernelIdeal.Gen Idealize.ShloMosaic

variable {F : FTy → Type} [FloatOps F]

/-- Eight hundred thousand ones. -/
def ones : (⟨S800000, .f32⟩ : BufTy).Contents (Elt F) :=
  broadcastInDim S800000 ![] bcast_S_S800000 (constant S_ .f32 0x3F800000#32)

/-- The occurrences of each node in `idx`, weighted by `wt`, at least one, to the power -1/2. -/
def degScaleWith (wt : (⟨S800000, .f32⟩ : BufTy).Contents (Elt F)) (idx : (⟨S800000, .i32⟩ : BufTy).Contents (Elt F)) :
    (⟨S50000, .f32⟩ : BufTy).Contents (Elt F) :=
  Host.rsqrt (maximumf
    (Host.scatterAdd scatter_S50000_S800000x1_S800000_n_0_0_1
      (broadcastInDim S50000 ![] bcast_S_S50000 (constant S_ .f32 0x00000000#32))
      (broadcastInDim S800000x1 ![0] bcast_S800000_S800000x1_0 idx) wt)
    (broadcastInDim S50000 ![] bcast_S_S50000 (constant S_ .f32 0x3F800000#32)))

/-- The degree scale: each occurrence counted once. -/
def degScale (idx : (⟨S800000, .i32⟩ : BufTy).Contents (Elt F)) : (⟨S50000, .f32⟩ : BufTy).Contents (Elt F) :=
  degScaleWith (ones (F := F)) idx

/-- The neighbourhood sum: rows of `h` gathered at `src`, added into the rows `dst` names. -/
def aggregate (h : (⟨S50000x64, .f32⟩ : BufTy).Contents (Elt F)) (src dst : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (Host.gather gather_S50000x64_S800000x1_S800000x64_1_0_n_n_0_1_164 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.KernelIdeal.Stages

end
-- ==== Proof.KernelHost.lean ====
/-
  The kernel program's host operations before and between its two launches, read from any buffer contents.

  Before the first launch they leave the out-degree scale, reshaped into a column, for the first kernel, and the vector
  of ones that the in-degree count reuses later. Between the launches they leave the neighbourhood sum of the first
  launch's result, the in-degree scale reshaped into a column, and the bias reshaped into a one-row array, for the second
  kernel. They write none of the program's arguments.
-/
import proofs.«175310_j38543036514863_1_alg».proof.Proof.Gen.KernelIdeal.Launch
import proofs.«175310_j38543036514863_1_alg».proof.Proof.Stages
import proofs.«175310_j38543036514863_1_alg».proof.Proof.LibHostWalk

set_option maxRecDepth 16384

noncomputable section

namespace Cert.KernelIdeal.HostRead

open Cert.KernelIdeal Cert.KernelIdeal.Gen Cert.KernelIdeal.Stages
open Idealize.ShloMosaic Idealize.ShloMosaic.TcCoe Idealize.ShloMosaic.StableHlo Cert.HostWalk

variable {F : FTy → Type} [FloatOps F]

-- the scatter-adds and the gather are never opened here
attribute [local irreducible] Host.scatterAdd Host.gather

/-! ## Before the first launch -/

/-- The first kernel's column of factors: the out-degree scale, reshaped. -/
theorem pre_scale (W : Valuation τ sig (Elt F)) :
    after hostOps0 W (Proc.devRef .tc main_v7)
      = shapeCast S50000x1 (degScale (F := F) (W (Proc.devRef .tc main_arg4))) shapeCasts_S50000_S50000x1 := by
  walk_back [hostOps0]
  rfl

/-- The vector of ones. -/
theorem pre_ones (W : Valuation τ sig (Elt F)) : after hostOps0 W (Proc.devRef .tc main_v0) = ones (F := F) := by
  walk_back [hostOps0]
  rfl

theorem pre_arg0 (W : Valuation τ sig (Elt F)) : after hostOps0 W (Proc.devRef .tc main_arg0) = W (Proc.devRef .tc main_arg0) := by walk_back [hostOps0]
theorem pre_arg1 (W : Valuation τ sig (Elt F)) : after hostOps0 W (Proc.devRef .tc main_arg1) = W (Proc.devRef .tc main_arg1) := by walk_back [hostOps0]
theorem pre_arg2 (W : Valuation τ sig (Elt F)) : after hostOps0 W (Proc.devRef .tc main_arg2) = W (Proc.devRef .tc main_arg2) := by walk_back [hostOps0]
theorem pre_arg3 (W : Valuation τ sig (Elt F)) : after hostOps0 W (Proc.devRef .tc main_arg3) = W (Proc.devRef .tc main_arg3) := by walk_back [hostOps0]
theorem pre_arg4 (W : Valuation τ sig (Elt F)) : after hostOps0 W (Proc.devRef .tc main_arg4) = W (Proc.devRef .tc main_arg4) := by walk_back [hostOps0]
theorem pre_arg5 (W : Valuation τ sig (Elt F)) : after hostOps0 W (Proc.devRef .tc main_arg5) = W (Proc.devRef .tc main_arg5) := by walk_back [hostOps0]
theorem pre_arg6 (W : Valuation τ sig (Elt F)) : after hostOps0 W (Proc.devRef .tc main_arg6) = W (Proc.devRef .tc main_arg6) := by walk_back [hostOps0]
theorem pre_arg7 (W : Valuation τ sig (Elt F)) : after hostOps0 W (Proc.devRef .tc main_arg7) = W (Proc.devRef .tc main_arg7) := by walk_back [hostOps0]

/-! ## Between the launches -/

/-- The second kernel's rows: the neighbourhood sum of the first launch's result. -/
theorem mid_sums (W : Valuation τ sig (Elt F)) :
    after hostOps1 W (Proc.devRef .tc main_v18)
      = aggregate (F := F) (W (Proc.devRef .tc main_v8)) (W (Proc.devRef .tc main_arg4)) (W (Proc.devRef .tc main_arg5)) := by
  walk_back [hostOps1]
  rfl

/-- The second kernel's column of factors: the in-degree scale over the weights found in the ones' buffer, reshaped. -/
theorem mid_scale (W : Valuation τ sig (Elt F)) :
    after hostOps1 W (Proc.devRef .tc main_v25)
      = shapeCast S50000x1 (degScaleWith (F := F) (W (Proc.devRef .tc main_v0)) (W (Proc.devRef .tc main_arg5))) shapeCasts_S50000_S50000x1 := by
  walk_back [hostOps1]
  rfl

/-- The second kernel's bias row: the bias, reshaped. -/
theorem mid_bias (W : Valuation τ sig (Elt F)) :
    after hostOps1 W (Proc.devRef .tc main_v26)
      = shapeCast S1x64 (W (Proc.devRef .tc main_arg2)) shapeCasts_S64_S1x64 := by
  walk_back [hostOps1]
  rfl

theorem mid_arg3 (W : Valuation τ sig (Elt F)) : after hostOps1 W (Proc.devRef .tc main_arg3) = W (Proc.devRef .tc main_arg3) := by walk_back [hostOps1]
theorem mid_arg6 (W : Valuation τ sig (Elt F)) : after hostOps1 W (Proc.devRef .tc main_arg6) = W (Proc.devRef .tc main_arg6) := by walk_back [hostOps1]
theorem mid_arg7 (W : Valuation τ sig (Elt F)) : after hostOps1 W (Proc.devRef .tc main_arg7) = W (Proc.devRef .tc main_arg7) := by walk_back [hostOps1]

end Cert.KernelIdeal.HostRead

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibLayerOps.lean ====
/-
  The operations of a dense layer read at one entry, on the extended reals (general lemmas: any extents).

  * a product against a weight matrix that is TRANSPOSED FIRST, as an operation of its own, and then multiplied
    plainly (x · Wᵀ with W of shape N×K): entry (p, c) is Σ_q x[p, q] · W[c, q] — for the vector unit's matmul into
    a zero accumulator and for the host's dot_general alike;
  * a bias vector of length C laid out as a 1×C row and repeated down the rows, by either spelling (a shape cast
    followed by a broadcast; two broadcasts by dimension map): entry (p, c) is the bias's entry c — for every C,
    the one-column case C = 1 included (there the row's only coordinate is 0, which is what a unit axis is read at).
-/
import proofs.«175310_j38543036514863_1_alg».proof.Proof.LibPlainDot
import Idealize.ShloMosaic.Lib.ValueLayout
import Idealize.ShloMosaic.Lib.Pipeline.Value

noncomputable section

open scoped BigOperators

namespace Cert.LayerOps

open Idealize.ShloMosaic Idealize.ShloMosaic.ValueIdx

variable {M K N : Nat} {d : DotDims ⟨2, ![M, K]⟩ ⟨2, ![K, N]⟩ ⟨2, ![M, N]⟩}

/-- The vector unit's product against a transposed weight matrix, into a zero accumulator, at entry (p, c). -/
theorem matmul_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    matmul d prec l (transpose ⟨2, ![K, N]⟩ [1, 0] w ht) (constant ⟨2, ![M, N]⟩ .f32 0x00000000#32) (ix2 p c)
      = ∑ q : Fin K, l (ix2 p q) * w (ix2 c q) :=
  (PlainDot.matmul_zero_apply h prec l (transpose ⟨2, ![K, N]⟩ [1, 0] w ht) p c).trans
    (Finset.sum_congr rfl fun q _ => congrArg (l (ix2 p q) * ·) (transpose_ix2_apply w ht q c))

/-- The host's product against a transposed weight matrix, at entry (p, c). -/
theorem dotGeneral_transposed_apply (h : PlainDot.IsPlain d) (prec : Option ContractPrecision) {φ₁ φ₂ : FTy}
    (l : FVec Ideal ⟨2, ![M, K]⟩ φ₁) (w : FVec Ideal ⟨2, ![N, K]⟩ φ₂)
    (ht : (⟨2, ![N, K]⟩ : Shape).Transposes [1, 0] ⟨2, ![K, N]⟩) (p : Fin M) (c : Fin N) :
    Host.dotGeneral d prec l (transpose ⟨2, ![K, N]⟩ [1, 0] w ht) (ix2 p c)
      = ∑ q : Fin K, l (ix2 p q) * w (ix2 c q) :=
  (PlainDot.dotGeneral_apply h prec l (transpose ⟨2, ![K, N]⟩ [1, 0] w ht) p c).trans
    (Finset.sum_congr rfl fun q _ => congrArg (l (ix2 p q) * ·) (transpose_ix2_apply w ht q c))

/-- A bias cast to a row and broadcast down R rows, at entry (p, c): any C. -/
theorem bias_cast_rows {α : Type} {R C : Nat} (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) :=
  (broadcastTo_1b_ab_apply (shapeCast ⟨2, ![1, C]⟩ v hs) hb p c).trans (shapeCast_a_1a_apply v hs 0 c)

/-- A coordinate below C is what a broadcast reads on an axis of extent C: itself, or 0 when C = 1 (then it IS 0). -/
private theorem coord_or_zero {C : Nat} (c : Fin C) : c.val = if C = 1 then 0 else c.val := by
  split
  · have := c.isLt; omega
  · rfl

/-- A bias broadcast to a row and then down N rows, both by dimension map, at entry (n, c): any C. -/
theorem bias_bcast_rows {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ => rfl
    | ⟨1, _⟩ => exact coord_or_zero c)).trans
  (broadcastInDim_apply ![1] h1 b (ix2 (0 : Fin 1) c) (ix1 c) (fun a => by
    match a with
    | ⟨0, _⟩ => exact coord_or_zero c))

end Cert.LayerOps

end
-- ==== Proof.LibRowScaledDense.lean ====
/-
  The layer's two dense steps on the extended reals, each as one whole-array function, and the two ways a program
  spells each.

  `scaledProduct x s w` is the product of the rows of `x`, each first multiplied by its own factor `s n`, with `w`:
  entry (n, c) is Σ_q (x[n, q] · s[n]) · w[q, c]. `scaledPlusBias a s b` multiplies row n of `a` by `s n` and adds the
  bias: entry (n, c) is a[n, c] · s[n] + b[c].

  The host spells the first as a dot_general of `x` times the factors laid out as a column and repeated across the
  columns, the second with the factors repeated the same way and the bias laid out as a row and repeated down the
  rows. The vector unit works on a block of rows at a time: it is handed the block's factors already as a column, repeats
  them across the lanes itself, rounds both operands of the product to a shorter float format (no change on the extended
  reals) and multiplies into a zero accumulator; its bias arrives as a one-row array. No law of arithmetic is needed:
  both spellings perform the same multiplications and additions in the same order, so nothing here asks for a finite
  input.
-/
import proofs.«175310_j38543036514863_1_alg».proof.Proof.LibPlainDot
import proofs.«175310_j38543036514863_1_alg».proof.Proof.LibBroadcast
import proofs.«175310_j38543036514863_1_alg».proof.Proof.LibColumn
import proofs.«175310_j38543036514863_1_alg».proof.Proof.LibLayerOps
import Idealize.ShloMosaic.Lib.ValueIdx
import Idealize.ShloMosaic.Lib.ValueLayout

noncomputable section

open scoped BigOperators

namespace Cert.Layer

open Idealize.ShloMosaic Idealize.ShloMosaic.ValueIdx Cert.PlainDot

variable {N K C : Nat}

/-- Rows scaled, then multiplied: entry (n, c) is Σ_q (x[n, q] · s[n]) · w[q, c]. -/
def scaledProduct (x : (⟨2, ![N, K]⟩ : Shape).Idx → EReal) (s : (⟨1, ![N]⟩ : Shape).Idx → EReal)
    (w : (⟨2, ![K, C]⟩ : Shape).Idx → EReal) : (⟨2, ![N, C]⟩ : Shape).Idx → EReal :=
  fun i => ∑ q : Fin K, (x (ix2 (i 0 : Fin N) q) * s (ix1 (i 0 : Fin N))) * w (ix2 q (i 1 : Fin C))

theorem scaledProduct_apply (x : (⟨2, ![N, K]⟩ : Shape).Idx → EReal) (s : (⟨1, ![N]⟩ : Shape).Idx → EReal)
    (w : (⟨2, ![K, C]⟩ : Shape).Idx → EReal) (n : Fin N) (c : Fin C) :
    scaledProduct x s w (ix2 n c) = ∑ q : Fin K, (x (ix2 n q) * s (ix1 n)) * w (ix2 q c) := rfl

/-- Rows scaled, bias added: entry (n, c) is a[n, c] · s[n] + b[c]. -/
def scaledPlusBias (a : (⟨2, ![N, C]⟩ : Shape).Idx → EReal) (s : (⟨1, ![N]⟩ : Shape).Idx → EReal)
    (b : (⟨1, ![C]⟩ : Shape).Idx → EReal) : (⟨2, ![N, C]⟩ : Shape).Idx → EReal :=
  fun i => a i * s (ix1 (i 0 : Fin N)) + b (ix1 (i 1 : Fin C))

theorem scaledPlusBias_apply (a : (⟨2, ![N, C]⟩ : Shape).Idx → EReal) (s : (⟨1, ![N]⟩ : Shape).Idx → EReal)
    (b : (⟨1, ![C]⟩ : Shape).Idx → EReal) (n : Fin N) (c : Fin C) :
    scaledPlusBias a s b (ix2 n c) = a (ix2 n c) * s (ix1 n) + b (ix1 c) := rfl

/-! ## The host's spelling -/

/-- The factors as a column repeated across the columns, times `x`, then dot_general with `w`. -/
theorem host_scaledProduct {d : DotDims ⟨2, ![N, K]⟩ ⟨2, ![K, C]⟩ ⟨2, ![N, C]⟩} (h : IsPlain d)
    (prec : Option ContractPrecision) (hN : N ≠ 1)
    (x : FVec Ideal ⟨2, ![N, K]⟩ .f32) (s : FVec Ideal ⟨1, ![N]⟩ .f32) (w : FVec Ideal ⟨2, ![K, C]⟩ .f32)
    (h1 : (⟨1, ![N]⟩ : Shape).BroadcastsInDim ⟨2, ![N, 1]⟩ ![0])
    (h2 : (⟨2, ![N, 1]⟩ : Shape).BroadcastsInDim ⟨2, ![N, K]⟩ ![0, 1]) :
    Host.dotGeneral d prec (mulf x (broadcastInDim ⟨2, ![N, K]⟩ ![0, 1] h2 (broadcastInDim ⟨2, ![N, 1]⟩ ![0] h1 s))) w
      = scaledProduct x s w := by
  funext i
  obtain ⟨n, c, rfl⟩ : ∃ (n : Fin N) (c : Fin C), i = ix2 n c := ⟨i 0, i 1, eq_ix2 i⟩
  refine (dotGeneral_apply h prec _ w n c).trans (Finset.sum_congr rfl fun q _ => ?_)
  rw [mulf_apply, Cert.Bcast.rows_of_col_apply hN _ h2 n q, Cert.Bcast.col_apply hN s h1 n 0]
  rfl

/-- The factors repeated across the columns, times `a`, plus the bias as a row repeated down the rows. -/
theorem host_scaledPlusBias (hN : N ≠ 1)
    (a : FVec Ideal ⟨2, ![N, C]⟩ .f32) (s : FVec Ideal ⟨1, ![N]⟩ .f32) (b : FVec Ideal ⟨1, ![C]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![C]⟩ : Shape).BroadcastsInDim ⟨2, ![1, C]⟩ ![1])
    (g2 : (⟨2, ![1, C]⟩ : Shape).BroadcastsInDim ⟨2, ![N, C]⟩ ![0, 1]) :
    addf (mulf a (broadcastInDim ⟨2, ![N, C]⟩ ![0, 1] h2 (broadcastInDim ⟨2, ![N, 1]⟩ ![0] h1 s)))
        (broadcastInDim ⟨2, ![N, C]⟩ ![0, 1] g2 (broadcastInDim ⟨2, ![1, C]⟩ ![1] g1 b))
      = scaledPlusBias a s b := by
  funext i
  obtain ⟨n, c, rfl⟩ : ∃ (n : Fin N) (c : Fin C), i = ix2 n c := ⟨i 0, i 1, eq_ix2 i⟩
  rw [addf_apply, mulf_apply, Cert.Bcast.rows_of_col_apply hN _ h2 n c, Cert.Bcast.col_apply hN s h1 n 0,
    Cert.LayerOps.bias_bcast_rows b g1 g2 n c]
  rfl

/-! ## The vector unit's spelling, on a block of B rows -/

variable {B : Nat}

/-- A block's product: the block's factors, a column, repeated across the lanes, times the block's rows, both operands
    rounded, multiplied into a zero accumulator. -/
theorem unit_scaledProduct_apply {d : DotDims ⟨2, ![B, K]⟩ ⟨2, ![K, C]⟩ ⟨2, ![B, C]⟩} (h : IsPlain d)
    (prec : Option ContractPrecision)
    (x0 : FVec Ideal ⟨2, ![B, K]⟩ .f32) (x1 : FVec Ideal ⟨2, ![B, 1]⟩ .f32) (x2 : FVec Ideal ⟨2, ![K, C]⟩ .f32)
    (hs : (⟨2, ![B, 1]⟩ : Shape).ShapeCasts ⟨2, ![B, 1]⟩) (hb : (⟨2, ![B, 1]⟩ : Shape).Broadcasts ⟨2, ![B, K]⟩)
    (ht : FTy.bf16.bits < FTy.f32.bits) (r : Fin B) (c : Fin C) :
    matmul d prec (truncf .bf16 (mulf x0 (broadcastTo ⟨2, ![B, K]⟩ (shapeCast ⟨2, ![B, 1]⟩ x1 hs) hb)) ht)
        (truncf .bf16 x2 ht) (constant ⟨2, ![B, C]⟩ .f32 0x00000000#32) (ix2 r c)
      = ∑ q : Fin K, (x0 (ix2 r q) * x1 (ix2 r (0 : Fin 1))) * x2 (ix2 q c) := by
  refine (matmul_zero_apply h prec _ _ r c).trans (Finset.sum_congr rfl fun q _ => ?_)
  rw [truncf_apply, truncf_apply, mulf_apply, Cert.Column.broadcastTo_a1_ab_apply _ hb r q, shapeCast_self]

/-- A block's scaled rows plus bias: the block's factors repeated across the lanes, the one-row bias down the rows. -/
theorem unit_scaledPlusBias_apply
    (x0 : FVec Ideal ⟨2, ![B, C]⟩ .f32) (x1 : FVec Ideal ⟨2, ![B, 1]⟩ .f32) (x2 : FVec Ideal ⟨2, ![1, C]⟩ .f32)
    (h0 : (⟨2, ![B, C]⟩ : Shape).ShapeCasts ⟨2, ![B, C]⟩) (h1 : (⟨2, ![B, 1]⟩ : Shape).ShapeCasts ⟨2, ![B, 1]⟩)
    (h2 : (⟨2, ![1, C]⟩ : Shape).ShapeCasts ⟨2, ![1, C]⟩)
    (hb1 : (⟨2, ![B, 1]⟩ : Shape).Broadcasts ⟨2, ![B, C]⟩) (hb2 : (⟨2, ![1, C]⟩ : Shape).Broadcasts ⟨2, ![B, C]⟩)
    (r : Fin B) (c : Fin C) :
    addf (mulf (shapeCast ⟨2, ![B, C]⟩ x0 h0) (broadcastTo ⟨2, ![B, C]⟩ (shapeCast ⟨2, ![B, 1]⟩ x1 h1) hb1))
        (broadcastTo ⟨2, ![B, C]⟩ (shapeCast ⟨2, ![1, C]⟩ x2 h2) hb2) (ix2 r c)
      = x0 (ix2 r c) * x1 (ix2 r (0 : Fin 1)) + x2 (ix2 (0 : Fin 1) c) := by
  rw [addf_apply, mulf_apply, shapeCast_self, shapeCast_self, shapeCast_self,
    Cert.Column.broadcastTo_a1_ab_apply _ hb1 r c, broadcastTo_1b_ab_apply _ hb2 r c]

end Cert.Layer

end
-- ==== Proof.Region0.lean ====
/-
  The first kernel launch computes the scaled product, a block of 5000 rows per grid point.

  At grid point t the kernel is handed rows 5000·t … 5000·t + 4999 of the features, the same rows of the column of
  out-degree factors, and all of the weights; it writes back rows 5000·t … of its result. An entry of the scaled product
  depends on one row of the features, that row's factor, and one column of the weights, so what point t writes back is
  exactly block t of the scaled product of the whole arrays; the ten blocks tile the 50000 rows, so after the launch the
  result array is the scaled product. The column of factors is whatever vector was reshaped into it.
-/
import proofs.«175310_j38543036514863_1_alg».proof.Proof.Gen.KernelIdeal.Frame
import proofs.«175310_j38543036514863_1_alg».proof.Proof.LibRowScaledDense
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The kernel's product contracts the left operand's axis 1 with the right operand's axis 0. -/
theorem plainDot : Cert.PlainDot.IsPlain dot_S5000x128_S128x64_S5000x64_1_0_0_1_n_n := ⟨rfl, rfl, rfl, rfl, rfl, rfl⟩

/-- The body's one stored value at an entry: the block's rows scaled by the block's factors, times the weights. -/
theorem pay_apply (x0 : Vec Ideal S5000x128 .f32) (x1 : Vec Ideal S5000x1 .f32) (x2 : Vec Ideal S128x64 .f32)
    (r : Fin 5000) (k : Fin 64) :
    k0_pay1 x0 x1 x2 (ix2 r k) = ∑ q : Fin 128, (x0 (ix2 r q) * x1 (ix2 r (0 : Fin 1))) * x2 (ix2 q k) := by
  unfold k0_pay1
  exact Cert.Layer.unit_scaledProduct_apply (B := 5000) (K := 128) (C := 64) plainDot none x0 x1 x2 _ _ _ r k

theorem hz : (![0, 0] : Fin 2 → Nat) = fun _ => 0 := funext fun a => by fin_cases a <;> rfl

/-- The printed index maps over the ten grid points: the row-blocked windows are at block t, the weights at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The features' block at point t: rows 5000·t … of the features. -/
theorem rows_apply (c : Dev nD) (t : Fin cfg0.N) (r : Fin 5000) (q : Fin 128) (R : Fin 50000)
    (hR : R.val = 5000 * t.val + r.val) :
    (iblk0 V c 0 t : Vec Ideal S5000x128 .f32) (ix2 r q) = (V c main_arg0 : S50000x128.Idx → EReal) (ix2 R q) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * r.val = R.val; rw [e0, hR]; omega
  | ⟨1, _⟩ => show win0_0.index t (1 : Fin 2) * 128 + 1 * q.val = q.val; rw [e1]; omega

/-- The factors' block at point t: the same rows of the column, that is of the vector reshaped into it. -/
theorem factor_apply (c : Dev nD) (sv : Vec Ideal S50000 .f32)
    (hs : V c main_v7 = shapeCast S50000x1 sv shapeCasts_S50000_S50000x1) (t : Fin cfg0.N) (r : Fin 5000) (R : Fin 50000)
    (hR : R.val = 5000 * t.val + r.val) :
    (iblk0 V c 1 t : Vec Ideal S5000x1 .f32) (ix2 r (0 : Fin 1)) = sv (ix1 R) := by
  obtain ⟨-, -, e2, e3, -⟩ := idx_facts t
  unfold iblk0
  rw [View.read_apply]
  show V c main_v7 _ = _
  rw [hs]
  refine Eq.trans (congrArg _ (funext fun a => Fin.ext ?_)) (Cert.Column.shapeCast_a_a1_apply (a := 50000) sv shapeCasts_S50000_S50000x1 R (0 : Fin 1))
  match a with
  | ⟨0, _⟩ => show win0_1.index t (0 : Fin 2) * 5000 + 1 * r.val = R.val; rw [e2, hR]; omega
  | ⟨1, _⟩ => show win0_1.index t (1 : Fin 2) * 1 + 1 * 0 = 0; rw [e3]

/-- The weights' block at every point: the weights. -/
theorem weights_apply (c : Dev nD) (t : Fin cfg0.N) (q : Fin 128) (k : Fin 64) :
    (iblk0 V c 2 t : Vec Ideal S128x64 .f32) (ix2 q k) = (V c main_arg1 : S128x64.Idx → EReal) (ix2 q k) := by
  obtain ⟨-, -, -, -, e4, e5, -⟩ := idx_facts t
  unfold iblk0
  rw [View.read_apply]
  show V c main_arg1 _ = V c main_arg1 _
  refine congrArg _ (funext fun a => Fin.ext ?_)
  match a with
  | ⟨0, _⟩ => show win0_2.index t (0 : Fin 2) * 128 + 1 * q.val = q.val; rw [e4]; omega
  | ⟨1, _⟩ => show win0_2.index t (1 : Fin 2) * 64 + 1 * k.val = k.val; rw [e5]; omega

/-- An entry of what point t stores is the entry of the whole arrays' scaled product 5000·t rows further down. -/
theorem block_entry (c : Dev nD) (sv : Vec Ideal S50000 .f32)
    (hs : V c main_v7 = shapeCast S50000x1 sv shapeCasts_S50000_S50000x1) (t : Fin cfg0.N) (r : Fin 5000) (k : Fin 64)
    (R : Fin 50000) (hR : R.val = 5000 * t.val + r.val) :
    k0_pay1 (iblk0 V c 0 t) (iblk0 V c 1 t) (iblk0 V c 2 t) (ix2 r k)
      = Cert.Layer.scaledProduct (N := 50000) (K := 128) (C := 64) (V c main_arg0) sv (V c main_arg1) (ix2 R k) := by
  refine (pay_apply (iblk0 V c 0 t) (iblk0 V c 1 t) (iblk0 V c 2 t) r k).trans ?_
  rw [Cert.Layer.scaledProduct_apply]
  refine Finset.sum_congr rfl fun q _ => ?_
  rw [rows_apply V c t r q R hR, factor_apply V c sv hs t r R hR, weights_apply V c t q k]

/-- WHAT POINT t WRITES BACK is block t of the scaled product of the arrays the launch finds. -/
theorem flushed_eq (c : Dev nD) (sv : Vec Ideal S50000 .f32)
    (hs : V c main_v7 = shapeCast S50000x1 sv shapeCasts_S50000_S50000x1) (t : Fin cfg0.N) :
    (dat0 V c).flushed 3 t = ((cfg0.win 3).blk t).view.read (Elt Ideal)
      (Cert.Layer.scaledProduct (N := 50000) (K := 128) (C := 64) (V c main_arg0) sv (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x64) hz]
  obtain ⟨-, -, -, -, -, -, e6, e7⟩ := idx_facts t
  have hN : cfg0.N = 10 := N_0
  have ht : t.val < 10 := hN ▸ t.isLt
  funext j
  revert j
  show ∀ j : S5000x64.Idx, k0_pay1 (iblk0 V c 0 t) (iblk0 V c 1 t) (iblk0 V c 2 t) j
    = Cert.Layer.scaledProduct (N := 50000) (K := 128) (C := 64) (V c main_arg0) sv (V c main_arg1) (((cfg0.win 3).blk t).view.emb j)
  intro j
  obtain ⟨r, k, rfl⟩ : ∃ (r : Fin 5000) (k : Fin 64), j = ix2 r k := ⟨j 0, j 1, eq_ix2 j⟩
  have he : ((cfg0.win 3).blk t).view.emb (ix2 r k) = ix2 (⟨5000 * t.val + r.val, by omega⟩ : Fin 50000) k :=
    funext fun a => Fin.ext (by
      match a with
      | ⟨0, _⟩ => show win0_3.index t (0 : Fin 2) * 5000 + 1 * r.val = 5000 * t.val + r.val; rw [e6]; omega
      | ⟨1, _⟩ => show win0_3.index t (1 : Fin 2) * 64 + 1 * k.val = k.val; rw [e7]; omega)
  rw [he]
  exact block_entry V c sv hs t r k _ rfl

/-- An index is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v8).slice (win0_3.rect t)).set ↔ _
  rw [View.set_slice_whole, Rect.mem_set_unit]
  exact Iff.rfl

/-- Every row lies in the block of the point its number divided by 5000 names. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e6]; show (i 0).val / 5000 * 5000 ≤ (i 0).val ∧ (i 0).val < (i 0).val / 5000 * 5000 + 5000; omega
  | ⟨1, _⟩ =>
    show win0_3.index t (1 : Fin 2) * 64 ≤ (i 1).val ∧ (i 1).val < win0_3.index t (1 : Fin 2) * 64 + 64
    rw [e7]; omega

/-- THE RESULT ARRAY after the first launch is the scaled product of the features, the factors and the weights. -/
theorem final (c : Dev nD) (sv : Vec Ideal S50000 .f32)
    (hs : V c main_v7 = shapeCast S50000x1 sv shapeCasts_S50000_S50000x1) :
    (dat0 V c).arrAt 3 cfg0.N
      = Cert.Layer.scaledProduct (N := 50000) (K := 128) (C := 64) (V c main_arg0) sv (V c main_arg1) :=
  (dat0 V c).arrAt_eq_of_cover 3 _ (fun t _ => flushed_eq V c sv hs t) (fun i => cover i)

end Cert.KernelIdeal.Region0

end
-- ==== Proof.Region1.lean ====
/-
  The second kernel launch scales the rows of the neighbourhood sums and adds the bias, a block of 5000 rows per grid
  point.

  At grid point t the kernel is handed rows 5000·t … 5000·t + 4999 of the sums, the same rows of the column of in-degree
  factors, and the bias as a one-row array; it writes back rows 5000·t … of its result. An entry of the result depends on
  the same entry of the sums, its row's factor and its column's bias, so what point t writes back is block t of the
  whole arrays' "scale the rows, add the bias"; the ten blocks tile the 50000 rows, so after the launch the result array
  is that function. The column of factors and the bias row are whatever vectors were reshaped into them.
-/
import proofs.«175310_j38543036514863_1_alg».proof.Proof.Gen.KernelIdeal.Frame
import proofs.«175310_j38543036514863_1_alg».proof.Proof.LibRowScaledDense
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The body's one stored value at an entry: the block's entry times its row's factor, plus its column's bias. -/
theorem pay_apply (x0 : Vec Ideal S5000x64 .f32) (x1 : Vec Ideal S5000x1 .f32) (x2 : Vec Ideal S1x64 .f32)
    (r : Fin 5000) (k : Fin 64) :
    k1_pay1 x0 x1 x2 (ix2 r k) = x0 (ix2 r k) * x1 (ix2 r (0 : Fin 1)) + x2 (ix2 (0 : Fin 1) k) := by
  unfold k1_pay1
  exact Cert.Layer.unit_scaledPlusBias_apply (B := 5000) (C := 64) x0 x1 x2 _ _ _ _ _ r k

theorem hz : (![0, 0] : Fin 2 → Nat) = fun _ => 0 := funext fun a => by fin_cases a <;> rfl

/-- The printed index maps over the ten grid points: the row-blocked windows are at block t, the bias row at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- The sums' block at point t: rows 5000·t … of the sums. -/
theorem rows_apply (c : Dev nD) (t : Fin cfg1.N) (r : Fin 5000) (k : Fin 64) (R : Fin 50000)
    (hR : R.val = 5000 * t.val + r.val) :
    (iblk1 V c 0 t : Vec Ideal S5000x64 .f32) (ix2 r k) = (V c main_v18 : S50000x64.Idx → EReal) (ix2 R k) := by
  obtain ⟨e0, e1, -⟩ := idx_facts t
  unfold iblk1
  rw [View.read_apply]
  show V c main_v18 _ = V c main_v18 _
  refine congrArg _ (funext fun a => Fin.ext ?_)
  match a with
  | ⟨0, _⟩ => show win1_0.index t (0 : Fin 2) * 5000 + 1 * r.val = R.val; rw [e0, hR]; omega
  | ⟨1, _⟩ => show win1_0.index t (1 : Fin 2) * 64 + 1 * k.val = k.val; rw [e1]; omega

/-- The factors' block at point t: the same rows of the column, that is of the vector reshaped into it. -/
theorem factor_apply (c : Dev nD) (sv : Vec Ideal S50000 .f32)
    (hs : V c main_v25 = shapeCast S50000x1 sv shapeCasts_S50000_S50000x1) (t : Fin cfg1.N) (r : Fin 5000) (R : Fin 50000)
    (hR : R.val = 5000 * t.val + r.val) :
    (iblk1 V c 1 t : Vec Ideal S5000x1 .f32) (ix2 r (0 : Fin 1)) = sv (ix1 R) := by
  obtain ⟨-, -, e2, e3, -⟩ := idx_facts t
  unfold iblk1
  rw [View.read_apply]
  show V c main_v25 _ = _
  rw [hs]
  refine Eq.trans (congrArg _ (funext fun a => Fin.ext ?_)) (Cert.Column.shapeCast_a_a1_apply (a := 50000) sv shapeCasts_S50000_S50000x1 R (0 : Fin 1))
  match a with
  | ⟨0, _⟩ => show win1_1.index t (0 : Fin 2) * 5000 + 1 * r.val = R.val; rw [e2, hR]; omega
  | ⟨1, _⟩ => show win1_1.index t (1 : Fin 2) * 1 + 1 * 0 = 0; rw [e3]

/-- The bias row's block at every point: the bias vector reshaped into it. -/
theorem bias_apply (c : Dev nD) (bv : Vec Ideal S64 .f32)
    (hb : V c main_v26 = shapeCast S1x64 bv shapeCasts_S64_S1x64) (t : Fin cfg1.N) (k : Fin 64) :
    (iblk1 V c 2 t : Vec Ideal S1x64 .f32) (ix2 (0 : Fin 1) k) = bv (ix1 k) := by
  obtain ⟨-, -, -, -, e4, e5, -⟩ := idx_facts t
  unfold iblk1
  rw [View.read_apply]
  show V c main_v26 _ = _
  rw [hb]
  refine Eq.trans (congrArg _ (funext fun a => Fin.ext ?_)) (shapeCast_a_1a_apply (a := 64) bv shapeCasts_S64_S1x64 (0 : Fin 1) k)
  match a with
  | ⟨0, _⟩ => show win1_2.index t (0 : Fin 2) * 1 + 1 * 0 = 0; rw [e4]
  | ⟨1, _⟩ => show win1_2.index t (1 : Fin 2) * 64 + 1 * k.val = k.val; rw [e5]; omega

/-- An entry of what point t stores is the entry of the whole arrays' function 5000·t rows further down. -/
theorem block_entry (c : Dev nD) (sv : Vec Ideal S50000 .f32) (bv : Vec Ideal S64 .f32)
    (hs : V c main_v25 = shapeCast S50000x1 sv shapeCasts_S50000_S50000x1)
    (hb : V c main_v26 = shapeCast S1x64 bv shapeCasts_S64_S1x64) (t : Fin cfg1.N) (r : Fin 5000) (k : Fin 64)
    (R : Fin 50000) (hR : R.val = 5000 * t.val + r.val) :
    k1_pay1 (iblk1 V c 0 t) (iblk1 V c 1 t) (iblk1 V c 2 t) (ix2 r k)
      = Cert.Layer.scaledPlusBias (N := 50000) (C := 64) (V c main_v18) sv bv (ix2 R k) := by
  refine (pay_apply (iblk1 V c 0 t) (iblk1 V c 1 t) (iblk1 V c 2 t) r k).trans ?_
  rw [Cert.Layer.scaledPlusBias_apply, rows_apply V c t r k R hR, factor_apply V c sv hs t r R hR, bias_apply V c bv hb t k]

/-- WHAT POINT t WRITES BACK is block t of "scale the rows, add the bias" of the arrays the launch finds. -/
theorem flushed_eq (c : Dev nD) (sv : Vec Ideal S50000 .f32) (bv : Vec Ideal S64 .f32)
    (hs : V c main_v25 = shapeCast S50000x1 sv shapeCasts_S50000_S50000x1)
    (hb : V c main_v26 = shapeCast S1x64 bv shapeCasts_S64_S1x64) (t : Fin cfg1.N) :
    (dat1 V c).flushed 3 t = ((cfg1.win 3).blk t).view.read (Elt Ideal)
      (Cert.Layer.scaledPlusBias (N := 50000) (C := 64) (V c main_v18) sv bv) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨-, -, -, -, -, -, e6, e7⟩ := idx_facts t
  have hN : cfg1.N = 10 := N_1
  have ht : t.val < 10 := hN ▸ t.isLt
  funext j
  revert j
  show ∀ j : S5000x64.Idx, k1_pay1 (iblk1 V c 0 t) (iblk1 V c 1 t) (iblk1 V c 2 t) j
    = Cert.Layer.scaledPlusBias (N := 50000) (C := 64) (V c main_v18) sv bv (((cfg1.win 3).blk t).view.emb j)
  intro j
  obtain ⟨r, k, rfl⟩ : ∃ (r : Fin 5000) (k : Fin 64), j = ix2 r k := ⟨j 0, j 1, eq_ix2 j⟩
  have he : ((cfg1.win 3).blk t).view.emb (ix2 r k) = ix2 (⟨5000 * t.val + r.val, by omega⟩ : Fin 50000) k :=
    funext fun a => Fin.ext (by
      match a with
      | ⟨0, _⟩ => show win1_3.index t (0 : Fin 2) * 5000 + 1 * r.val = 5000 * t.val + r.val; rw [e6]; omega
      | ⟨1, _⟩ => show win1_3.index t (1 : Fin 2) * 64 + 1 * k.val = k.val; rw [e7]; omega)
  rw [he]
  exact block_entry V c sv bv hs hb t r k _ rfl

/-- An index is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- Every row lies in the block of the point its number divided by 5000 names. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, e6, e7⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e6]; show (i 0).val / 5000 * 5000 ≤ (i 0).val ∧ (i 0).val < (i 0).val / 5000 * 5000 + 5000; omega
  | ⟨1, _⟩ =>
    show win1_3.index t (1 : Fin 2) * 64 ≤ (i 1).val ∧ (i 1).val < win1_3.index t (1 : Fin 2) * 64 + 64
    rw [e7]; omega

/-- THE RESULT ARRAY after the second launch: the sums' rows scaled by the factors, the bias added. -/
theorem final (c : Dev nD) (sv : Vec Ideal S50000 .f32) (bv : Vec Ideal S64 .f32)
    (hs : V c main_v25 = shapeCast S50000x1 sv shapeCasts_S50000_S50000x1)
    (hb : V c main_v26 = shapeCast S1x64 bv shapeCasts_S64_S1x64) :
    (dat1 V c).arrAt 3 cfg1.N = Cert.Layer.scaledPlusBias (N := 50000) (C := 64) (V c main_v18) sv bv :=
  (dat1 V c).arrAt_eq_of_cover 3 _ (fun t _ => flushed_eq V c sv bv hs hb t) (fun i => cover i)

end Cert.KernelIdeal.Region1

end
-- ==== Proof.Spec.lean ====
/-
  What both programs compute, on the extended reals, as functions of the eight arguments.

  `rows`: scale the features' rows by the out-degree scale of the source list and multiply by the weights; sum over the
  neighbourhoods; scale the rows by the in-degree scale of the target list and add the bias. `table`: those rows and the
  reused rows placed into the table of 55000 rows. `cache`: the table's rows at the cached row numbers.
-/
import proofs.«175310_j38543036514863_1_alg».proof.Proof.LibRowScaledDense
import proofs.«175310_j38543036514863_1_alg».proof.Proof.Stages
import proofs.«175310_j38543036514863_1_alg».proof.Proof.Place

noncomputable section

namespace Cert.KernelIdeal.Spec

open Cert.KernelIdeal Idealize.ShloMosaic Cert.KernelIdeal.Stages

/-- The layer's output rows. -/
def rows (x : Vec Ideal S50000x128 .f32) (w : Vec Ideal S128x64 .f32) (b : Vec Ideal S64 .f32)
    (src dst : Vec Ideal S800000 .i32) : Vec Ideal S50000x64 .f32 :=
  Cert.Layer.scaledPlusBias (N := 50000) (C := 64)
    (aggregate (F := Ideal) (Cert.Layer.scaledProduct (N := 50000) (K := 128) (C := 64) x (degScale (F := Ideal) src) w) src dst)
    (degScale (F := Ideal) dst) b

/-- The full table. -/
def table (x : Vec Ideal S50000x128 .f32) (w : Vec Ideal S128x64 .f32) (b : Vec Ideal S64 .f32)
    (reused : Vec Ideal S5000x64 .f32) (src dst : Vec Ideal S800000 .i32) (ri : Vec Ideal S5000 .i32) :
    Vec Ideal S55000x64 .f32 :=
  Place.full (F := Ideal) (rows x w b src dst) reused ri

/-- The cached rows. -/
def cache (x : Vec Ideal S50000x128 .f32) (w : Vec Ideal S128x64 .f32) (b : Vec Ideal S64 .f32)
    (reused : Vec Ideal S5000x64 .f32) (src dst : Vec Ideal S800000 .i32) (ri : Vec Ideal S5000 .i32)
    (ci : Vec Ideal S10000 .i32) : Vec Ideal S10000x64 .f32 :=
  Place.cached (F := Ideal) (table x w b reused src dst ri) ci

end Cert.KernelIdeal.Spec

end
-- ==== Proof.KernelRun.lean ====
/-
  The kernel program's run, with its two results read.

  The program is: host operations, the first kernel launch, host operations, the second launch, host operations. Its
  frame is the chain of those segments from the launch memory; the last segment leaves every buffer at a fold of the
  segments' effects over the launch memory, so a final state has each result buffer at that fold too. Reading the fold
  backwards: the last host operations only move rows (the full table and the cached rows of the second launch's result);
  the second launch's result is "scale the rows, add the bias" of the neighbourhood sum, the in-degree scale and the
  bias; the neighbourhood sum is of the first launch's result, which is the scaled product of the features, the
  out-degree scale and the weights; and every argument is read as launched, since nothing writes one. No finiteness of
  the inputs is used.
-/
import proofs.«175310_j38543036514863_1_alg».proof.Proof.Gen.KernelIdeal.Frame
import proofs.«175310_j38543036514863_1_alg».proof.Proof.PlaceKernel
import proofs.«175310_j38543036514863_1_alg».proof.Proof.KernelHost
import proofs.«175310_j38543036514863_1_alg».proof.Proof.Region0
import proofs.«175310_j38543036514863_1_alg».proof.Proof.Region1
import proofs.«175310_j38543036514863_1_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloats

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the kit's implicit arguments are found by unifying its conclusion with this one, which takes unfolding plain
-- definitions in a metavariable's type
set_option backward.isDefEq.respectTransparency.types false in
/-- From any memory with zero counters every weakly fair execution of the program terminates, nothing faulting, and
    every final state has the two result buffers at the last segment's contents and the arguments as launched: the
    segments' chain from the launch, the last thread state read against the final state. -/
theorem run_values : θ_run defs (onTc (τ := τ) (main (F := F))) ⟨m, fun _ => 0, ρ⟩ (fun r => ∀ c : Dev nD,
      r.2.mem ((c.tc : Thread nD τ).loc main_v65) = W15 m ρ c (Proc.devRef .tc main_v65)
      ∧ r.2.mem ((c.tc : Thread nD τ).loc main_v72) = W15 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v65 (by decide)),
       h c _ (mem_uc main_v72 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c)⟩)

end AnyFloats

/-! ## The results on the extended reals -/

section Values

open Cert.KernelIdeal.Stages

variable (m : (ℓ : Loc nD τ sig) → Buf (Elt Ideal) ℓ) (ρ : Dev nD → PrngReg)

/-! ### The arguments at the segment boundaries: as launched -/

theorem entry0_arg0 (c : Dev nD) : V1 m ρ c main_arg0 = m ((c : Thread nD τ).loc main_arg0) := HostRead.pre_arg0 (W0 m ρ c)
theorem entry0_arg1 (c : Dev nD) : V1 m ρ c main_arg1 = m ((c : Thread nD τ).loc main_arg1) := HostRead.pre_arg1 (W0 m ρ c)

theorem exit0_arg2 (c : Dev nD) : W2 m ρ c (Proc.devRef .tc main_arg2) = m ((c : Thread nD τ).loc main_arg2) :=
  (W2_of_ne m ρ c main_arg2 (by decide)).trans (HostRead.pre_arg2 (W0 m ρ c))
theorem exit0_arg3 (c : Dev nD) : W2 m ρ c (Proc.devRef .tc main_arg3) = m ((c : Thread nD τ).loc main_arg3) :=
  (W2_of_ne m ρ c main_arg3 (by decide)).trans (HostRead.pre_arg3 (W0 m ρ c))
theorem exit0_arg4 (c : Dev nD) : W2 m ρ c (Proc.devRef .tc main_arg4) = m ((c : Thread nD τ).loc main_arg4) :=
  (W2_of_ne m ρ c main_arg4 (by decide)).trans (HostRead.pre_arg4 (W0 m ρ c))
theorem exit0_arg5 (c : Dev nD) : W2 m ρ c (Proc.devRef .tc main_arg5) = m ((c : Thread nD τ).loc main_arg5) :=
  (W2_of_ne m ρ c main_arg5 (by decide)).trans (HostRead.pre_arg5 (W0 m ρ c))
theorem exit0_arg6 (c : Dev nD) : W2 m ρ c (Proc.devRef .tc main_arg6) = m ((c : Thread nD τ).loc main_arg6) :=
  (W2_of_ne m ρ c main_arg6 (by decide)).trans (HostRead.pre_arg6 (W0 m ρ c))
theorem exit0_arg7 (c : Dev nD) : W2 m ρ c (Proc.devRef .tc main_arg7) = m ((c : Thread nD τ).loc main_arg7) :=
  (W2_of_ne m ρ c main_arg7 (by decide)).trans (HostRead.pre_arg7 (W0 m ρ c))
/-- The ones are still there after the first launch. -/
theorem exit0_ones (c : Dev nD) : W2 m ρ c (Proc.devRef .tc main_v0) = ones (F := Ideal) :=
  (W2_of_ne m ρ c main_v0 (by decide)).trans (HostRead.pre_ones (W0 m ρ c))

theorem exit1_arg3 (c : Dev nD) : W4 m ρ c (Proc.devRef .tc main_arg3) = m ((c : Thread nD τ).loc main_arg3) :=
  (W4_of_ne m ρ c main_arg3 (by decide)).trans ((HostRead.mid_arg3 (W2 m ρ c)).trans (exit0_arg3 m ρ c))
theorem exit1_arg6 (c : Dev nD) : W4 m ρ c (Proc.devRef .tc main_arg6) = m ((c : Thread nD τ).loc main_arg6) :=
  (W4_of_ne m ρ c main_arg6 (by decide)).trans ((HostRead.mid_arg6 (W2 m ρ c)).trans (exit0_arg6 m ρ c))
theorem exit1_arg7 (c : Dev nD) : W4 m ρ c (Proc.devRef .tc main_arg7) = m ((c : Thread nD τ).loc main_arg7) :=
  (W4_of_ne m ρ c main_arg7 (by decide)).trans ((HostRead.mid_arg7 (W2 m ρ c)).trans (exit0_arg7 m ρ c))

/-! ### The two launches' results -/

/-- The first kernel's column of factors is the out-degree scale of the source list, reshaped. -/
theorem entry0_scale (c : Dev nD) :
    V1 m ρ c main_v7 = shapeCast S50000x1 (degScale (F := Ideal) (m ((c : Thread nD τ).loc main_arg4))) shapeCasts_S50000_S50000x1 :=
  HostRead.pre_scale (W0 m ρ c)

/-- After the first launch its result array is the scaled product. -/
theorem first_result (c : Dev nD) :
    W2 m ρ c (Proc.devRef .tc main_v8)
      = Cert.Layer.scaledProduct (N := 50000) (K := 128) (C := 64) (m ((c : Thread nD τ).loc main_arg0))
          (degScale (F := Ideal) (m ((c : Thread nD τ).loc main_arg4))) (m ((c : Thread nD τ).loc main_arg1)) := by
  refine (W2_arr m ρ c 3).trans ?_
  rw [Region0.final (V1 m ρ) c _ (entry0_scale m ρ c), entry0_arg0, entry0_arg1]

/-- Entering the second launch, the rows are the neighbourhood sum of the first launch's result. -/
theorem entry1_sums (c : Dev nD) :
    V3 m ρ c main_v18
      = aggregate (F := Ideal)
          (Cert.Layer.scaledProduct (N := 50000) (K := 128) (C := 64) (m ((c : Thread nD τ).loc main_arg0))
            (degScale (F := Ideal) (m ((c : Thread nD τ).loc main_arg4))) (m ((c : Thread nD τ).loc main_arg1)))
          (m ((c : Thread nD τ).loc main_arg4)) (m ((c : Thread nD τ).loc main_arg5)) := by
  refine (HostRead.mid_sums (W2 m ρ c)).trans ?_
  rw [first_result, exit0_arg4, exit0_arg5]

/-- The second kernel's column of factors is the in-degree scale of the target list, reshaped. -/
theorem entry1_scale (c : Dev nD) :
    V3 m ρ c main_v25 = shapeCast S50000x1 (degScale (F := Ideal) (m ((c : Thread nD τ).loc main_arg5))) shapeCasts_S50000_S50000x1 := by
  refine (HostRead.mid_scale (W2 m ρ c)).trans ?_
  rw [exit0_ones, exit0_arg5]
  rfl

/-- Its bias row is the bias, reshaped. -/
theorem entry1_bias (c : Dev nD) :
    V3 m ρ c main_v26 = shapeCast S1x64 (m ((c : Thread nD τ).loc main_arg2)) shapeCasts_S64_S1x64 := by
  refine (HostRead.mid_bias (W2 m ρ c)).trans ?_
  rw [exit0_arg2]

/-- After the second launch its result array is the layer's output rows. -/
theorem second_result (c : Dev nD) :
    W4 m ρ c (Proc.devRef .tc main_v27)
      = Spec.rows (m ((c : Thread nD τ).loc main_arg0)) (m ((c : Thread nD τ).loc main_arg1)) (m ((c : Thread nD τ).loc main_arg2))
          (m ((c : Thread nD τ).loc main_arg4)) (m ((c : Thread nD τ).loc main_arg5)) := by
  refine (W4_arr m ρ c 3).trans ?_
  rw [Region1.final (V3 m ρ) c _ _ (entry1_scale m ρ c) (entry1_bias m ρ c), entry1_sums]
  rfl

/-! ### The program's two results -/

/-- The first result: the full table. -/
theorem table_eq (c : Dev nD) :
    W15 m ρ c (Proc.devRef .tc main_v65)
      = Spec.table (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (PlaceRead.full_eq (W4 m ρ c)).trans ?_
  rw [second_result, exit1_arg3, exit1_arg6]
  rfl

/-- The second result: the cached rows. -/
theorem cache_eq (c : Dev nD) :
    W15 m ρ c (Proc.devRef .tc main_v72)
      = Spec.cache (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (PlaceRead.cached_eq (W4 m ρ c)).trans ?_
  rw [second_result, exit1_arg3, exit1_arg6, exit1_arg7]
  rfl

/-- THE RUN ON THE EXTENDED REALS: the two results at the specification's functions of the launch contents, the
    arguments unchanged. -/
theorem run : θ_run defs (onTc (τ := τ) (main (F := Ideal))) ⟨m, fun _ => 0, ρ⟩ (fun r => ∀ c : Dev nD,
      r.2.mem ((c.tc : Thread nD τ).loc main_v65)
        = Spec.table (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v72)
        = Spec.cache (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (table_eq m ρ c), (h c).2.1.trans (cache_eq m ρ c), (h c).2.2⟩)
    (run_values m ρ)

end Values

end Cert.KernelIdeal.Run

end
-- ==== Proof.RefOps.lean ====
import proofs.«175310_j38543036514863_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- The reference's first 41 operations, in order: the two degree counts, the scaled product, the neighbourhood sum, and the scaled sum plus bias (its last operation writes that array). -/
abbrev opsLayer : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg4 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → (⟨S50000, .f32⟩ : BufTy).Contents (Elt F)),
    StableHlo.binary main_v3 main_v4 main_v5 (maximumf : (⟨S50000, .f32⟩ : BufTy).Contents (Elt F) → (⟨S50000, .f32⟩ : BufTy).Contents (Elt F) → (⟨S50000, .f32⟩ : BufTy).Contents (Elt F)),
    StableHlo.unary main_v5 main_v6 (Host.rsqrt : (⟨S50000, .f32⟩ : BufTy).Contents (Elt F) → (⟨S50000, .f32⟩ : BufTy).Contents (Elt F)),
    StableHlo.unary main_v6 main_v7 (broadcastInDim S50000x1 ![0] bcast_S50000_S50000x1_0 : (⟨S50000, .f32⟩ : BufTy).Contents (Elt F) → (⟨S50000x1, .f32⟩ : BufTy).Contents (Elt F)),
    StableHlo.unary main_v7 main_v8 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v8 main_v9 (mulf : (⟨S50000x128, .f32⟩ : BufTy).Contents (Elt F) → (⟨S50000x128, .f32⟩ : BufTy).Contents (Elt F) → (⟨S50000x128, .f32⟩ : BufTy).Contents (Elt F)),
    StableHlo.binary main_v9 main_arg1 main_v10 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_arg4 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_arg4 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_arg4 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_3 (constant S_ .f32 0x00000000#32),
    StableHlo.unary main_cst_3 main_v18 (broadcastInDim S50000x64 ![] bcast_S_S50000x64 : (⟨S_, .f32⟩ : BufTy).Contents (Elt F) → (⟨S50000x64, .f32⟩ : BufTy).Contents (Elt F)),
    StableHlo.unary main_arg5 main_v19 (broadcastInDim S800000x1 ![0] bcast_S800000_S800000x1_0 : (⟨S800000, .i32⟩ : BufTy).Contents (Elt F) → (⟨S800000x1, .i32⟩ : BufTy).Contents (Elt F)),
    StableHlo.ternary main_v18 main_v19 main_v17 main_v20 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_4 (constant S_ .f32 0x00000000#32),
    StableHlo.unary main_cst_4 main_v21 (broadcastInDim S50000 ![] bcast_S_S50000 : (⟨S_, .f32⟩ : BufTy).Contents (Elt F) → (⟨S50000, .f32⟩ : BufTy).Contents (Elt F)),
    StableHlo.unary main_arg5 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v0 main_v23 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_5 (constant S_ .f32 0x3F800000#32),
    StableHlo.unary main_cst_5 main_v24 (broadcastInDim S50000 ![] bcast_S_S50000 : (⟨S_, .f32⟩ : BufTy).Contents (Elt F) → (⟨S50000, .f32⟩ : BufTy).Contents (Elt F)),
    StableHlo.binary main_v23 main_v24 main_v25 (maximumf : (⟨S50000, .f32⟩ : BufTy).Contents (Elt F) → (⟨S50000, .f32⟩ : BufTy).Contents (Elt F) → (⟨S50000, .f32⟩ : BufTy).Contents (Elt F)),
    StableHlo.unary main_v25 main_v26 (Host.rsqrt : (⟨S50000, .f32⟩ : BufTy).Contents (Elt F) → (⟨S50000, .f32⟩ : BufTy).Contents (Elt F)),
    StableHlo.unary main_v26 main_v27 (broadcastInDim S50000x1 ![0] bcast_S50000_S50000x1_0 : (⟨S50000, .f32⟩ : BufTy).Contents (Elt F) → (⟨S50000x1, .f32⟩ : BufTy).Contents (Elt F)),
    StableHlo.unary main_v27 main_v28 (broadcastInDim S50000x64 ![0, 1] bcast_S50000x1_S50000x64_0_1 : (⟨S50000x1, .f32⟩ : BufTy).Contents (Elt F) → (⟨S50000x64, .f32⟩ : BufTy).Contents (Elt F)),
    StableHlo.binary main_v20 main_v28 main_v29 (mulf : (⟨S50000x64, .f32⟩ : BufTy).Contents (Elt F) → (⟨S50000x64, .f32⟩ : BufTy).Contents (Elt F) → (⟨S50000x64, .f32⟩ : BufTy).Contents (Elt F)),
    StableHlo.unary main_arg2 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S50000x64 ![0, 1] bcast_S1x64_S50000x64_0_1 : (⟨S1x64, .f32⟩ : BufTy).Contents (Elt F) → (⟨S50000x64, .f32⟩ : BufTy).Contents (Elt F)),
    StableHlo.binary main_v29 main_v31 main_v32 (addf : (⟨S50000x64, .f32⟩ : BufTy).Contents (Elt F) → (⟨S50000x64, .f32⟩ : BufTy).Contents (Elt F) → (⟨S50000x64, .f32⟩ : BufTy).Contents (Elt F)) ]

theorem opsLayer_sub : (opsLayer : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩

/-- Its remaining 105 operations, in order, every called function's body listed at its call over the call's own buffers: the rows kept, their places, the two row scatters and the final row gather. -/
abbrev opsPlace : List (HloOp τ sig (Elt F)) :=
  [ StableHlo.nullary main_c_6 (constantI S_ 1 1#1),
    StableHlo.unary main_c_6 main_v33 (broadcastInDim S55000 ![] bcast_S_S55000 : (⟨S_, .i1⟩ : BufTy).Contents (Elt F) → (⟨S55000, .i1⟩ : BufTy).Contents (Elt F)),
    StableHlo.nullary main_c_7 (constantI S_ 32 0#32),
    StableHlo.unary main_c_7 main_v34 (broadcastInDim S5000 ![] bcast_S_S5000 : (⟨S_, .i32⟩ : BufTy).Contents (Elt F) → (⟨S5000, .i32⟩ : BufTy).Contents (Elt F)),
    StableHlo.binary main_arg6 main_v34 main_v35 (cmpi .slt : (⟨S5000, .i32⟩ : BufTy).Contents (Elt F) → (⟨S5000, .i32⟩ : BufTy).Contents (Elt F) → (⟨S5000, .i1⟩ : BufTy).Contents (Elt F)),
    StableHlo.nullary main_c_8 (constantI S_ 32 55000#32),
    StableHlo.unary main_c_8 main_v36 (broadcastInDim S5000 ![] bcast_S_S5000 : (⟨S_, .i32⟩ : BufTy).Contents (Elt F) → (⟨S5000, .i32⟩ : BufTy).Contents (Elt F)),
    StableHlo.binary main_arg6 main_v36 main_v37 (addi : (⟨S5000, .i32⟩ : BufTy).Contents (Elt F) → (⟨S5000, .i32⟩ : BufTy).Contents (Elt F) → (⟨S5000, .i32⟩ : BufTy).Contents (Elt F)),
    StableHlo.ternary main_v35 main_v37 main_arg6 main_v38 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v38 main_v39 (broadcastInDim S5000x1 ![0] bcast_S5000_S5000x1_0 : (⟨S5000, .i32⟩ : BufTy).Contents (Elt F) → (⟨S5000x1, .i32⟩ : BufTy).Contents (Elt F)),
    StableHlo.nullary main_c_9 (constantI S_ 1 0#1),
    StableHlo.unary main_c_9 main_v40 (broadcastInDim S5000 ![] bcast_S_S5000 : (⟨S_, .i1⟩ : BufTy).Contents (Elt F) → (⟨S5000, .i1⟩ : BufTy).Contents (Elt F)),
    StableHlo.ternary main_v33 main_v39 main_v40 main_v41 ((fun x i u => Host.scatter scatter_S55000_S5000x1_S5000_n_0_0_1 (fun _ b => b) x i u) : (⟨S55000, .i1⟩ : BufTy).Contents (Elt F) → (⟨S5000x1, .i32⟩ : BufTy).Contents (Elt F) → (⟨S5000, .i1⟩ : BufTy).Contents (Elt F) → (⟨S55000, .i1⟩ : BufTy).Contents (Elt F)),
    StableHlo.TRef.unary (.of main_v41 : StableHlo.TRef sig ⟨S55000, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![55000] ![1] ![54999] ![0] x v reduceWindows_S55000_S55000_w55000s1p54999_0 h_S_),
    StableHlo.nullary main_c_10 (constantI S_ 32 0#32),
    StableHlo.unary main_c_10 main_v43 (broadcastInDim S50000 ![] bcast_S_S50000 : (⟨S_, .i32⟩ : BufTy).Contents (Elt F) → (⟨S50000, .i32⟩ : BufTy).Contents (Elt F)),
    StableHlo.nullary main_c_11 (constantI S_ 32 0#32),
    StableHlo.TRef.unary (.of main_c_11 : StableHlo.TRef sig ⟨S_, .i32⟩) main_call1.v0 id,
    StableHlo.TRef.unary main_call1.v0 main_call1.v1 (broadcastInDim S55000 ![] bcast_S_S55000),
    StableHlo.TRef.binary main_call1.v1 (.of main_v42 : StableHlo.TRef sig ⟨S55000, .i32⟩) main_call1.v2 maxsi,
    StableHlo.nullary main_c_12 (constantI S_ 32 0#32),
    StableHlo.unary main_c_12 main_v45 (broadcastInDim S55000 ![] bcast_S_S55000 : (⟨S_, .i32⟩ : BufTy).Contents (Elt F) → (⟨S55000, .i32⟩ : BufTy).Contents (Elt F)),
    StableHlo.binary main_v44 main_v45 main_v46 (cmpi .slt : (⟨S55000, .i32⟩ : BufTy).Contents (Elt F) → (⟨S55000, .i32⟩ : BufTy).Contents (Elt F) → (⟨S55000, .i1⟩ : BufTy).Contents (Elt F)),
    StableHlo.nullary main_c_13 (constantI S_ 32 50000#32),
    StableHlo.unary main_c_13 main_v47 (broadcastInDim S55000 ![] bcast_S_S55000 : (⟨S_, .i32⟩ : BufTy).Contents (Elt F) → (⟨S55000, .i32⟩ : BufTy).Contents (Elt F)),
    StableHlo.binary main_v44 main_v47 main_v48 (addi : (⟨S55000, .i32⟩ : BufTy).Contents (Elt F) → (⟨S55000, .i32⟩ : BufTy).Contents (Elt F) → (⟨S55000, .i32⟩ : BufTy).Contents (Elt F)),
    StableHlo.ternary main_v46 main_v48 main_v44 main_v49 (select : (⟨S55000, .i1⟩ : BufTy).Contents (Elt F) → (⟨S55000, .i32⟩ : BufTy).Contents (Elt F) → (⟨S55000, .i32⟩ : BufTy).Contents (Elt F) → (⟨S55000, .i32⟩ : BufTy).Contents (Elt F)),
    StableHlo.unary main_v49 main_v50 (broadcastInDim S55000x1 ![0] bcast_S55000_S55000x1_0 : (⟨S55000, .i32⟩ : BufTy).Contents (Elt F) → (⟨S55000x1, .i32⟩ : BufTy).Contents (Elt F)),
    StableHlo.nullary main_c_14 (constantI S_ 32 1#32),
    StableHlo.unary main_c_14 main_v51 (broadcastInDim S55000 ![] bcast_S_S55000 : (⟨S_, .i32⟩ : BufTy).Contents (Elt F) → (⟨S55000, .i32⟩ : BufTy).Contents (Elt F)),
    StableHlo.ternary main_v43 main_v50 main_v51 main_v52 ((fun x i u => Host.scatter scatter_S50000_S55000x1_S55000_n_0_0_1 IntOp.addi x i u) : (⟨S50000, .i32⟩ : BufTy).Contents (Elt F) → (⟨S55000x1, .i32⟩ : BufTy).Contents (Elt F) → (⟨S55000, .i32⟩ : BufTy).Contents (Elt F) → (⟨S50000, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v52 : StableHlo.TRef sig ⟨S50000, .i32⟩) main_call2.call0.v0 main_call2.call0.v1 (fun x v => Host.reduceWindow IntOp.addi ![50000] ![1] ![49999] ![0] x v reduceWindows_S50000_S50000_w50000s1p49999_0 h_S_),
    StableHlo.nullary main_c_15 (constantI S_ 32 1#32),
    StableHlo.TRef.unary (.of main_c_15 : StableHlo.TRef sig ⟨S_, .i32⟩) main_call3.v0 (broadcastInDim S50000 ![] bcast_S_S50000),
    StableHlo.TRef.binary (.of main_v53 : StableHlo.TRef sig ⟨S50000, .i32⟩) main_call3.v0 main_call3.v1 Host.divsi,
    StableHlo.TRef.unary (.of main_v53 : StableHlo.TRef sig ⟨S50000, .i32⟩) main_call3.v2 signi,
    StableHlo.TRef.unary (.of main_c_15 : StableHlo.TRef sig ⟨S_, .i32⟩) main_call3.v3 signi,
    StableHlo.TRef.unary main_call3.v3 main_call3.v4 (broadcastInDim S50000 ![] bcast_S_S50000),
    StableHlo.TRef.binary main_call3.v2 main_call3.v4 main_call3.v5 (cmpi .ne),
    StableHlo.TRef.unary (.of main_c_15 : StableHlo.TRef sig ⟨S_, .i32⟩) main_call3.v6 (broadcastInDim S50000 ![] bcast_S_S50000),
    StableHlo.TRef.binary (.of main_v53 : StableHlo.TRef sig ⟨S50000, .i32⟩) main_call3.v6 main_call3.v7 Host.remsi,
    StableHlo.TRef.nullary main_call3.c (constantI S_ 32 0#32),
    StableHlo.TRef.unary main_call3.c main_call3.v8 (broadcastInDim S50000 ![] bcast_S_S50000),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S50000 ![] bcast_S_S50000),
    StableHlo.TRef.binary main_call3.v1 main_call3.v11 main_call3.v12 subi,
    StableHlo.TRef.ternary main_call3.v10 main_call3.v12 main_call3.v1 main_call3.call0.v0 select,
    StableHlo.nullary main_c_16 (constantI S_ 32 55000#32),
    StableHlo.TRef.unary (.of main_c_16 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S50000 ![] bcast_S_S50000),
    StableHlo.TRef.binary (.of main_v54 : StableHlo.TRef sig ⟨S50000, .i32⟩) main_call4.v3 main_call4.v4 Host.remsi,
    StableHlo.TRef.nullary main_call4.c_1 (constantI S_ 32 0#32),
    StableHlo.TRef.unary main_call4.c_1 main_call4.v5 (broadcastInDim S50000 ![] bcast_S_S50000),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S50000 ![] bcast_S_S50000),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S50000 ![] bcast_S_S50000),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S50000 ![] bcast_S_S50000),
    StableHlo.TRef.binary main_call4.v4 main_call4.v13 main_call4.v14 addi,
    StableHlo.TRef.ternary main_call4.v12 main_call4.v14 main_call4.v4 main_call4.v15 select,
    StableHlo.nullary main_cst_17 (constant S_ .f32 0x00000000#32),
    StableHlo.unary main_cst_17 main_v56 (broadcastInDim S55000x64 ![] bcast_S_S55000x64 : (⟨S_, .f32⟩ : BufTy).Contents (Elt F) → (⟨S55000x64, .f32⟩ : BufTy).Contents (Elt F)),
    StableHlo.nullary main_c_18 (constantI S_ 32 0#32),
    StableHlo.unary main_c_18 main_v57 (broadcastInDim S50000 ![] bcast_S_S50000 : (⟨S_, .i32⟩ : BufTy).Contents (Elt F) → (⟨S50000, .i32⟩ : BufTy).Contents (Elt F)),
    StableHlo.binary main_v55 main_v57 main_v58 (cmpi .slt : (⟨S50000, .i32⟩ : BufTy).Contents (Elt F) → (⟨S50000, .i32⟩ : BufTy).Contents (Elt F) → (⟨S50000, .i1⟩ : BufTy).Contents (Elt F)),
    StableHlo.nullary main_c_19 (constantI S_ 32 55000#32),
    StableHlo.unary main_c_19 main_v59 (broadcastInDim S50000 ![] bcast_S_S50000 : (⟨S_, .i32⟩ : BufTy).Contents (Elt F) → (⟨S50000, .i32⟩ : BufTy).Contents (Elt F)),
    StableHlo.binary main_v55 main_v59 main_v60 (addi : (⟨S50000, .i32⟩ : BufTy).Contents (Elt F) → (⟨S50000, .i32⟩ : BufTy).Contents (Elt F) → (⟨S50000, .i32⟩ : BufTy).Contents (Elt F)),
    StableHlo.ternary main_v58 main_v60 main_v55 main_v61 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v61 main_v62 (broadcastInDim S50000x1 ![0] bcast_S50000_S50000x1_0 : (⟨S50000, .i32⟩ : BufTy).Contents (Elt F) → (⟨S50000x1, .i32⟩ : BufTy).Contents (Elt F)),
    StableHlo.ternary main_v56 main_v62 main_v32 main_v63 ((fun x i u => Host.scatter scatter_S55000x64_S50000x1_S50000x64_1_0_0_1 (fun _ b => b) x i u) : (⟨S55000x64, .f32⟩ : BufTy).Contents (Elt F) → (⟨S50000x1, .i32⟩ : BufTy).Contents (Elt F) → (⟨S50000x64, .f32⟩ : BufTy).Contents (Elt F) → (⟨S55000x64, .f32⟩ : BufTy).Contents (Elt F)),
    StableHlo.nullary main_c_20 (constantI S_ 32 0#32),
    StableHlo.unary main_c_20 main_v64 (broadcastInDim S5000 ![] bcast_S_S5000 : (⟨S_, .i32⟩ : BufTy).Contents (Elt F) → (⟨S5000, .i32⟩ : BufTy).Contents (Elt F)),
    StableHlo.binary main_arg6 main_v64 main_v65 (cmpi .slt : (⟨S5000, .i32⟩ : BufTy).Contents (Elt F) → (⟨S5000, .i32⟩ : BufTy).Contents (Elt F) → (⟨S5000, .i1⟩ : BufTy).Contents (Elt F)),
    StableHlo.nullary main_c_21 (constantI S_ 32 55000#32),
    StableHlo.unary main_c_21 main_v66 (broadcastInDim S5000 ![] bcast_S_S5000 : (⟨S_, .i32⟩ : BufTy).Contents (Elt F) → (⟨S5000, .i32⟩ : BufTy).Contents (Elt F)),
    StableHlo.binary main_arg6 main_v66 main_v67 (addi : (⟨S5000, .i32⟩ : BufTy).Contents (Elt F) → (⟨S5000, .i32⟩ : BufTy).Contents (Elt F) → (⟨S5000, .i32⟩ : BufTy).Contents (Elt F)),
    StableHlo.ternary main_v65 main_v67 main_arg6 main_v68 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.unary main_v68 main_v69 (broadcastInDim S5000x1 ![0] bcast_S5000_S5000x1_0 : (⟨S5000, .i32⟩ : BufTy).Contents (Elt F) → (⟨S5000x1, .i32⟩ : BufTy).Contents (Elt F)),
    StableHlo.ternary main_v63 main_v69 main_arg3 main_v70 ((fun x i u => Host.scatter scatter_S55000x64_S5000x1_S5000x64_1_0_0_1 (fun _ b => b) x i u) : (⟨S55000x64, .f32⟩ : BufTy).Contents (Elt F) → (⟨S5000x1, .i32⟩ : BufTy).Contents (Elt F) → (⟨S5000x64, .f32⟩ : BufTy).Contents (Elt F) → (⟨S55000x64, .f32⟩ : BufTy).Contents (Elt F)),
    StableHlo.nullary main_c_22 (constantI S_ 32 0#32),
    StableHlo.unary main_c_22 main_v71 (broadcastInDim S10000 ![] bcast_S_S10000 : (⟨S_, .i32⟩ : BufTy).Contents (Elt F) → (⟨S10000, .i32⟩ : BufTy).Contents (Elt F)),
    StableHlo.binary main_arg7 main_v71 main_v72 (cmpi .slt : (⟨S10000, .i32⟩ : BufTy).Contents (Elt F) → (⟨S10000, .i32⟩ : BufTy).Contents (Elt F) → (⟨S10000, .i1⟩ : BufTy).Contents (Elt F)),
    StableHlo.nullary main_c_23 (constantI S_ 32 55000#32),
    StableHlo.unary main_c_23 main_v73 (broadcastInDim S10000 ![] bcast_S_S10000 : (⟨S_, .i32⟩ : BufTy).Contents (Elt F) → (⟨S10000, .i32⟩ : BufTy).Contents (Elt F)),
    StableHlo.binary main_arg7 main_v73 main_v74 (addi : (⟨S10000, .i32⟩ : BufTy).Contents (Elt F) → (⟨S10000, .i32⟩ : BufTy).Contents (Elt F) → (⟨S10000, .i32⟩ : BufTy).Contents (Elt F)),
    StableHlo.ternary main_v72 main_v74 main_arg7 main_v75 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v75 main_v76 (broadcastInDim S10000x1 ![0] bcast_S10000_S10000x1_0 : (⟨S10000, .i32⟩ : BufTy).Contents (Elt F) → (⟨S10000x1, .i32⟩ : BufTy).Contents (Elt F)),
    StableHlo.binary main_v70 main_v76 main_v77 ((fun x i => Host.gather gather_S55000x64_S10000x1_S10000x64_1_0_n_n_0_1_164 x i) : (⟨S55000x64, .f32⟩ : BufTy).Contents (Elt F) → (⟨S10000x1, .i32⟩ : BufTy).Contents (Elt F) → (⟨S10000x64, .f32⟩ : BufTy).Contents (Elt F)) ]

theorem opsPlace_sub : (opsPlace : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

end Cert.ReferenceIdeal.Ops

end
-- ==== Proof.RefRun.lean ====
/-
  The reference program runs as one straight line of host operations.

  Its entry function calls small functions (a running count, a clip, a floor division, a remainder, two selects); a call
  executes the callee's operations on the call's own buffers, so the whole program is the list of the entry function's
  operations with each callee's operations in the call's place. Every weakly fair execution of such a line terminates,
  and each buffer ends at the fold of the operations' results over what the memory held at launch. The line is cut
  in two where the normalised, biased array has been written: everything before computes that array, everything after only
  moves rows of it.
-/
import proofs.«175310_j38543036514863_1_alg».proof.Proof.RefOps
import Idealize.ShloMosaic.Lib.Pipeline.Frame

noncomputable section

namespace Cert.ReferenceIdeal.Run

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The whole program: the layer's operations, then the row moves. -/
abbrev ops : List (HloOp τ sig (Elt F)) := opsLayer ++ opsPlace

set_option maxRecDepth 16384 in
set_option maxHeartbeats 4000000 in
/-- The entry function is that line: the called functions unfolded at their calls, the two halves of the entry
    function joined, and sequencing reassociated. -/
theorem main_eq (c : Dev nD) : main (F := F) c = seq ops := by
  simp only [main, main_part0, main_part1, fn_cumsum.body, fn_cumsum_0.body, fn_clip.body, fn_cumsum_1.body,
    fn_cumsum_2.body, fn_where.body, fn_floor_divide.body, fn_where_3.body, fn_remainder.body,
    ops, opsLayer, opsPlace, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => (List.mem_append.mp h).elim
    (List.forall_iff_forall_mem.mp opsLayer_sub op) (List.forall_iff_forall_mem.mp opsPlace_sub op)

/-- No operation of the layer allocates a buffer. -/
theorem opsLayer_fresh : (opsLayer : List (HloOp τ sig (Elt F))).Forall fun op => op.fresh = ∅ := by
  simp only [List.Forall]; repeat' constructor

/-- No row move allocates a buffer. -/
theorem opsPlace_fresh : (opsPlace : List (HloOp τ sig (Elt F))).Forall fun op => op.fresh = ∅ := by
  simp only [List.Forall]; repeat' constructor

theorem ops_fresh : ∀ op ∈ (ops : List (HloOp τ sig (Elt F))), op.fresh = ∅ := fun op h =>
  (List.mem_append.mp h).elim (List.forall_iff_forall_mem.mp opsLayer_fresh op) (List.forall_iff_forall_mem.mp opsPlace_fresh op)

/-- From any memory with zero counters every weakly fair execution of the reference terminates, and every buffer ends
    at the row moves' fold over the layer's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsPlace (after opsLayer (launchContents m c)) (Proc.devRef .tc b) :=
  (θ_run defs _ _).mono (fun _ h c b => (h c b).trans (congrFun (StableHlo.after_append opsLayer opsPlace _) _))
    (run_seq scopedRefs_eq scopedSems_eq defs main (fun _ => ops) main_eq (fun _ => ops_sub) m ρ (fun _ => ops_fresh))

end Cert.ReferenceIdeal.Run

end
-- ==== Proof.RefLayer.lean ====
/-
  The reference's layer, read: from any buffer contents its first operations leave the normalised, biased array at the
  host's spelling of "scale the rows of the features by the out-degree scale, multiply by the weights, sum over the
  neighbourhoods, scale the rows by the in-degree scale, add the bias" — and, on the extended reals, at the two
  whole-array functions of the dense-steps module around the neighbourhood sum. The arguments that the later row moves read are not
  written by these operations.
-/
import proofs.«175310_j38543036514863_1_alg».proof.Proof.RefOps
import proofs.«175310_j38543036514863_1_alg».proof.Proof.Stages
import proofs.«175310_j38543036514863_1_alg».proof.Proof.LibRowScaledDense
import proofs.«175310_j38543036514863_1_alg».proof.Proof.LibHostWalk

set_option maxRecDepth 16384

noncomputable section

namespace Cert.ReferenceIdeal.LayerRead

open Cert.ReferenceIdeal Cert.ReferenceIdeal.Gen Cert.ReferenceIdeal.Ops
open Idealize.ShloMosaic Idealize.ShloMosaic.TcCoe Idealize.ShloMosaic.StableHlo Cert.HostWalk
open Cert.KernelIdeal.Stages

-- the scatter-adds and the gather are never opened here
attribute [local irreducible] Host.scatterAdd Host.gather

section AnyFloats

variable {F : FTy → Type} [FloatOps F]

set_option maxHeartbeats 2000000 in
/-- The normalised, biased array in the host's spelling, over any float values. -/
theorem layer_host (V : Valuation τ sig (Elt F)) :
    after opsLayer V (Proc.devRef .tc main_v32)
      = addf
          (mulf
            (aggregate (F := F)
              (Host.dotGeneral dot_S50000x128_S128x64_S50000x64_1_0_0_1_n_n none
                (mulf (V (Proc.devRef .tc main_arg0))
                  (broadcastInDim S50000x128 ![0, 1] bcast_S50000x1_S50000x128_0_1
                    (broadcastInDim S50000x1 ![0] bcast_S50000_S50000x1_0 (degScale (F := F) (V (Proc.devRef .tc main_arg4))))))
                (V (Proc.devRef .tc main_arg1)))
              (V (Proc.devRef .tc main_arg4)) (V (Proc.devRef .tc main_arg5)))
            (broadcastInDim S50000x64 ![0, 1] bcast_S50000x1_S50000x64_0_1
              (broadcastInDim S50000x1 ![0] bcast_S50000_S50000x1_0 (degScale (F := F) (V (Proc.devRef .tc main_arg5))))))
          (broadcastInDim S50000x64 ![0, 1] bcast_S1x64_S50000x64_0_1
            (broadcastInDim S1x64 ![1] bcast_S64_S1x64_1 (V (Proc.devRef .tc main_arg2)))) := by
  walk_back [opsLayer]
  rfl

/-- The reused rows are not written by the layer's operations. -/
theorem kept_arg3 (V : Valuation τ sig (Elt F)) :
    after opsLayer V (Proc.devRef .tc main_arg3) = V (Proc.devRef .tc main_arg3) := by walk_back [opsLayer]
/-- Nor are the reused row numbers. -/
theorem kept_arg6 (V : Valuation τ sig (Elt F)) :
    after opsLayer V (Proc.devRef .tc main_arg6) = V (Proc.devRef .tc main_arg6) := by walk_back [opsLayer]
/-- Nor the cached row numbers. -/
theorem kept_arg7 (V : Valuation τ sig (Elt F)) :
    after opsLayer V (Proc.devRef .tc main_arg7) = V (Proc.devRef .tc main_arg7) := by walk_back [opsLayer]

end AnyFloats

/-- The reference's product contracts the features' axis 1 with the weights' axis 0. -/
theorem plainDot : Cert.PlainDot.IsPlain dot_S50000x128_S128x64_S50000x64_1_0_0_1_n_n := ⟨rfl, rfl, rfl, rfl, rfl, rfl⟩

/-- ON THE EXTENDED REALS the normalised, biased array is: rows of the features scaled by the out-degree scale and
    multiplied by the weights; summed over the neighbourhoods; rows scaled by the in-degree scale, bias added. -/
theorem layer_eq (V : Valuation τ sig (Elt Ideal)) :
    after opsLayer V (Proc.devRef .tc main_v32)
      = Cert.Layer.scaledPlusBias (N := 50000) (C := 64)
          (aggregate (F := Ideal)
            (Cert.Layer.scaledProduct (N := 50000) (K := 128) (C := 64) (V (Proc.devRef .tc main_arg0))
              (degScale (F := Ideal) (V (Proc.devRef .tc main_arg4))) (V (Proc.devRef .tc main_arg1)))
            (V (Proc.devRef .tc main_arg4)) (V (Proc.devRef .tc main_arg5)))
          (degScale (F := Ideal) (V (Proc.devRef .tc main_arg5))) (V (Proc.devRef .tc main_arg2)) := by
  rw [layer_host,
    Cert.Layer.host_scaledProduct (N := 50000) (K := 128) (C := 64) plainDot none (by decide),
    Cert.Layer.host_scaledPlusBias (N := 50000) (C := 64) (by decide)]

end Cert.ReferenceIdeal.LayerRead

end
-- ==== Proof.PlaceRef.lean ====
/-
  The reference's row moves, read: from any buffer contents, its last operations leave the full table and the cached
  rows at the row-placement functions of the normalised, biased array and of the reused rows and the two lists of row
  numbers, each read where the line starts.
-/
import proofs.«175310_j38543036514863_1_alg».proof.Proof.RefOps
import proofs.«175310_j38543036514863_1_alg».proof.Proof.Place
import proofs.«175310_j38543036514863_1_alg».proof.Proof.LibHostWalk

set_option maxRecDepth 16384

noncomputable section

namespace Cert.ReferenceIdeal.PlaceRead

open Cert.ReferenceIdeal Cert.ReferenceIdeal.Gen Cert.ReferenceIdeal.Ops
open Idealize.ShloMosaic Idealize.ShloMosaic.TcCoe Idealize.ShloMosaic.StableHlo Cert.HostWalk

variable {F : FTy → Type} [FloatOps F]

-- the scatters, gathers, running counts and integer divisions are never opened: only which operation feeds which is read
attribute [local irreducible] Host.scatter Host.gather Host.reduceWindow Host.remsi Host.divsi

set_option maxHeartbeats 2000000 in
/-- The full table after the row moves. -/
theorem full_eq (V : Valuation τ sig (Elt F)) :
    after opsPlace V (Proc.devRef .tc main_v70)
      = Cert.KernelIdeal.Place.full (F := F) (V (Proc.devRef .tc main_v32)) (V (Proc.devRef .tc main_arg3)) (V (Proc.devRef .tc main_arg6)) := by
  walk_back [opsPlace]
  rfl

set_option maxHeartbeats 2000000 in
/-- The cached rows after the row moves: rows of that table. -/
theorem cached_eq (V : Valuation τ sig (Elt F)) :
    after opsPlace V (Proc.devRef .tc main_v77)
      = Cert.KernelIdeal.Place.cached (F := F)
          (Cert.KernelIdeal.Place.full (F := F) (V (Proc.devRef .tc main_v32)) (V (Proc.devRef .tc main_arg3)) (V (Proc.devRef .tc main_arg6)))
          (V (Proc.devRef .tc main_arg7)) := by
  walk_back [opsPlace]
  rfl

end Cert.ReferenceIdeal.PlaceRead

end
-- ==== Proof.RefValue.lean ====
/-
  The reference program's run, with its two results read on the extended reals.

  Its line of operations is the layer's operations followed by the row moves. The row moves leave the full table and
  the cached rows at the row-placement functions of the layer's output array and of arguments the layer's operations do
  not write; the layer's output array is the specification's rows of the launch contents. So the two results are the
  specification's table and cache of the arguments, and no operation writes an argument.
-/
import proofs.«175310_j38543036514863_1_alg».proof.Proof.RefRun
import proofs.«175310_j38543036514863_1_alg».proof.Proof.RefLayer
import proofs.«175310_j38543036514863_1_alg».proof.Proof.PlaceRef
import proofs.«175310_j38543036514863_1_alg».proof.Proof.Spec

set_option maxRecDepth 16384

noncomputable section

namespace Cert.ReferenceIdeal.Value

open Cert.ReferenceIdeal Cert.ReferenceIdeal.Gen Cert.ReferenceIdeal.Ops
open Idealize.ShloMosaic Idealize.ShloMosaic.TcCoe Idealize.SL.Sem Idealize.ShloMosaic.StableHlo Cert.HostWalk

section AnyFloats

variable {F : FTy → Type} [FloatOps F]

/-! No operation of the line writes an argument. -/
theorem kept_arg0 (V : Valuation τ sig (Elt F)) :
    after opsPlace (after opsLayer V) (Proc.devRef .tc main_arg0) = V (Proc.devRef .tc main_arg0) := by
  walk_back [opsPlace, opsLayer]
theorem kept_arg1 (V : Valuation τ sig (Elt F)) :
    after opsPlace (after opsLayer V) (Proc.devRef .tc main_arg1) = V (Proc.devRef .tc main_arg1) := by
  walk_back [opsPlace, opsLayer]
theorem kept_arg2 (V : Valuation τ sig (Elt F)) :
    after opsPlace (after opsLayer V) (Proc.devRef .tc main_arg2) = V (Proc.devRef .tc main_arg2) := by
  walk_back [opsPlace, opsLayer]
theorem kept_arg3 (V : Valuation τ sig (Elt F)) :
    after opsPlace (after opsLayer V) (Proc.devRef .tc main_arg3) = V (Proc.devRef .tc main_arg3) := by
  walk_back [opsPlace, opsLayer]
theorem kept_arg4 (V : Valuation τ sig (Elt F)) :
    after opsPlace (after opsLayer V) (Proc.devRef .tc main_arg4) = V (Proc.devRef .tc main_arg4) := by
  walk_back [opsPlace, opsLayer]
theorem kept_arg5 (V : Valuation τ sig (Elt F)) :
    after opsPlace (after opsLayer V) (Proc.devRef .tc main_arg5) = V (Proc.devRef .tc main_arg5) := by
  walk_back [opsPlace, opsLayer]
theorem kept_arg6 (V : Valuation τ sig (Elt F)) :
    after opsPlace (after opsLayer V) (Proc.devRef .tc main_arg6) = V (Proc.devRef .tc main_arg6) := by
  walk_back [opsPlace, opsLayer]
theorem kept_arg7 (V : Valuation τ sig (Elt F)) :
    after opsPlace (after opsLayer V) (Proc.devRef .tc main_arg7) = V (Proc.devRef .tc main_arg7) := by
  walk_back [opsPlace, opsLayer]

end AnyFloats

variable (m : (ℓ : Loc nD τ sig) → Buf (Elt Ideal) ℓ) (ρ : Dev nD → PrngReg)

/-- The first result: the full table. -/
theorem table_eq (c : Dev nD) :
    after opsPlace (after opsLayer (launchContents m c)) (Proc.devRef .tc main_v70)
      = Cert.KernelIdeal.Spec.table (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  refine (PlaceRead.full_eq _).trans ?_
  rw [LayerRead.layer_eq, LayerRead.kept_arg3, LayerRead.kept_arg6]
  rfl

/-- The second result: the cached rows. -/
theorem cache_eq (c : Dev nD) :
    after opsPlace (after opsLayer (launchContents m c)) (Proc.devRef .tc main_v77)
      = Cert.KernelIdeal.Spec.cache (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine (PlaceRead.cached_eq _).trans ?_
  rw [LayerRead.layer_eq, LayerRead.kept_arg3, LayerRead.kept_arg6, LayerRead.kept_arg7]
  rfl

/-- THE RUN ON THE EXTENDED REALS: the two results at the specification's functions of the launch contents, the
    arguments unchanged. -/
theorem run : θ_run defs (onTc (τ := τ) (main (F := Ideal))) ⟨m, fun _ => 0, ρ⟩ (fun r => ∀ c : Dev nD,
      r.2.mem ((c.tc : Thread nD τ).loc main_v70)
        = Cert.KernelIdeal.Spec.table (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_v77)
        = Cert.KernelIdeal.Spec.cache (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c main_v70).trans (table_eq m c), (h c main_v77).trans (cache_eq m c),
     (h c main_arg0).trans (kept_arg0 _), (h c main_arg1).trans (kept_arg1 _), (h c main_arg2).trans (kept_arg2 _), (h c main_arg3).trans (kept_arg3 _), (h c main_arg4).trans (kept_arg4 _), (h c main_arg5).trans (kept_arg5 _), (h c main_arg6).trans (kept_arg6 _), (h c main_arg7).trans (kept_arg7 _)⟩)
    (Run.run_main m ρ)

end Cert.ReferenceIdeal.Value

end
-- ==== Proof.lean ====
/-
  A graph-convolution layer with a row cache: the kernel program and its reference compute the same two arrays on the
  extended reals.

  Both programs scale each node's feature row by the node's out-degree scale (the reciprocal square root of its number
  of occurrences in the source list, at least one), multiply by the weights, sum the products over each node's incoming
  edges, scale each row by the node's in-degree scale and add the bias; then they place these 50000 rows and 5000 reused
  rows into a table of 55000 rows and gather 10000 cached rows from it. The reference does all of it with host
  operations. The kernel program does the scaled product and the final scaling-plus-bias in two kernels, each working on
  a block of 5000 rows per grid point with operands rounded to a shorter float format (no change on the extended
  reals), and everything else with the same host operations as the reference.

  The two sides perform the same multiplications and additions in the same order, so the claim needs no law of
  arithmetic and never uses that the inputs are finite. What is proved: each kernel launch's result array is one
  whole-array function of the arrays it finds (every grid point writes back its own block of that function, and the
  blocks tile the array); the host's spelling of the same two steps is the same two functions; the degree scales, the
  neighbourhood sum and the row placement are the same functions of the same arguments in both programs and are never
  opened. The frames of the two kernel programs are their generated frames; the reference's frame is its run with the
  results dropped; the idealization rewrote no operation, so there is nothing to preserve.
-/
import proofs.«175310_j38543036514863_1_alg».proof.Defs
import proofs.«175310_j38543036514863_1_alg».proof.Proof.Gen.Kernel
import proofs.«175310_j38543036514863_1_alg».proof.Proof.Gen.Kernel.Frame
import proofs.«175310_j38543036514863_1_alg».proof.Proof.Gen.KernelIdeal
import proofs.«175310_j38543036514863_1_alg».proof.Proof.Gen.KernelIdeal.Frame
import proofs.«175310_j38543036514863_1_alg».proof.Proof.Gen.ReferenceIdeal
import proofs.«175310_j38543036514863_1_alg».proof.Proof.Gen.Pre_finite_inputs
import proofs.«175310_j38543036514863_1_alg».proof.Proof.KernelRun
import proofs.«175310_j38543036514863_1_alg».proof.Proof.RefValue
import Idealize.ShloMosaic.Adequacy
import Idealize.ShloMosaic.Init

noncomputable section

namespace Cert.Proof

open Idealize.ShloMosaic Idealize.SL.Sem

/-- The kernel program, as printed, runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run m ρ)

/-- The idealization rewrote no operation. -/
theorem preserves : Cert.preserves_Kernel_KernelIdeal := trivial

/-- From memories that agree on the eight arguments both programs end with the specification's table and cache of those
    arguments as their two results. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ?_) (Cert.ReferenceIdeal.Value.run m' ρ')
  obtain ⟨e0, e1, e2, e3, e4, e5, e6, e7⟩ := hagree c
  refine ⟨(h c).1.trans ?_, (h c).2.1.trans ?_, (h c).2.2⟩
  · rw [e0, e1, e2, e3, e4, e5, e6]
  · rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
